-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S8192x128 .f32) (main_arg1 : FVec F S8192x8192 .f32) (main_arg2 : FVec F S128x128 .f32) (main_arg3 : FVec F S128x128 .f32) (main_arg4 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S1024x128 : Shape := ⟨2, ![1024, 128]⟩
abbrev S256x8192 : Shape := ⟨2, ![256, 8192]⟩
abbrev S256x128 : Shape := ⟨2, ![256, 128]⟩
abbrev S8192x384 : Shape := ⟨2, ![8192, 384]⟩

abbrev nBuf : Space → Nat
  | .hbm => 13
  | .vmem => 32
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S8192x128, .bf16⟩
  | .hbm, ⟨6, _⟩ => ⟨S8192x128, .f32⟩
  | .hbm, ⟨7, _⟩ => ⟨S8192x8192, .bf16⟩
  | .hbm, ⟨8, _⟩ => ⟨S8192x128, .bf16⟩
  | .hbm, ⟨9, _⟩ => ⟨S8192x128, .f32⟩
  | .hbm, ⟨10, _⟩ => ⟨S8192x128, .bf16⟩
  | .hbm, ⟨11, _⟩ => ⟨S8192x128, .f32⟩
  | .hbm, ⟨12, _⟩ => ⟨S8192x384, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .bf16⟩
  | .local _ .vmem, ⟨4, _⟩ => ⟨S1024x128, .bf16⟩
  | .local _ .vmem, ⟨5, _⟩ => ⟨S256x8192, .f32⟩
  | .local _ .vmem, ⟨6, _⟩ => ⟨S256x8192, .f32⟩
  | .local _ .vmem, ⟨7, _⟩ => ⟨S8192x128, .bf16⟩
  | .local _ .vmem, ⟨8, _⟩ => ⟨S256x128, .f32⟩
  | .local _ .vmem, ⟨9, _⟩ => ⟨S256x128, .f32⟩
  | .local _ .vmem, ⟨10, _⟩ => ⟨S256x8192, .bf16⟩
  | .local _ .vmem, ⟨11, _⟩ => ⟨S256x8192, .bf16⟩
  | .local _ .vmem, ⟨12, _⟩ => ⟨S1024x128, .f32⟩
  | .local _ .vmem, ⟨13, _⟩ => ⟨S1024x128, .f32⟩
  | .local _ .vmem, ⟨14, _⟩ => ⟨S128x128, .f32⟩
  | .local _ .vmem, ⟨15, _⟩ => ⟨S1024x128, .bf16⟩
  | .local _ .vmem, ⟨16, _⟩ => ⟨S1024x128, .bf16⟩
  | .local _ .vmem, ⟨17, _⟩ => ⟨S256x8192, .bf16⟩
  | .local _ .vmem, ⟨18, _⟩ => ⟨S256x8192, .bf16⟩
  | .local _ .vmem, ⟨19, _⟩ => ⟨S8192x128, .bf16⟩
  | .local _ .vmem, ⟨20, _⟩ => ⟨S256x128, .f32⟩
  | .local _ .vmem, ⟨21, _⟩ => ⟨S256x128, .f32⟩
  | .local _ .vmem, ⟨22, _⟩ => ⟨S1024x128, .f32⟩
  | .local _ .vmem, ⟨23, _⟩ => ⟨S1024x128, .f32⟩
  | .local _ .vmem, ⟨24, _⟩ => ⟨S128x128, .f32⟩
  | .local _ .vmem, ⟨25, _⟩ => ⟨S1024x128, .bf16⟩
  | .local _ .vmem, ⟨26, _⟩ => ⟨S1024x128, .bf16⟩
  | .local _ .vmem, ⟨27, _⟩ => ⟨S256x8192, .bf16⟩
  | .local _ .vmem, ⟨28, _⟩ => ⟨S256x8192, .bf16⟩
  | .local _ .vmem, ⟨29, _⟩ => ⟨S8192x128, .bf16⟩
  | .local _ .vmem, ⟨30, _⟩ => ⟨S256x128, .f32⟩
  | .local _ .vmem, ⟨31, _⟩ => ⟨S256x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x8192 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x8192 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8192x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S1024x128_S1024x128_0_0 : (Rect.unit (s := S1024x128) ![0, 0] S1024x128.size inb_S1024x128_S1024x128_0_0).PackedRows (EltTy.packing .bf16)
  inb_S256x8192_S256x8192_0_0 : ∀ a, (![0, 0] : Fin 2 → Nat) a + S256x8192.size a ≤ S256x8192.size a
  h_S256x8192 : 0 < S256x8192.numel
  packedbf16_S256x8192_S256x8192_0_0 : (Rect.unit (s := S256x8192) ![0, 0] S256x8192.size inb_S256x8192_S256x8192_0_0).PackedRows (EltTy.packing .bf16)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x128_S256x128_0_0 : ∀ a, (![0, 0] : Fin 2 → Nat) a + S256x128.size a ≤ S256x128.size a
  h_S256x128 : 0 < S256x128.numel
  shapeCasts_S1024x128_S1024x128 : S1024x128.ShapeCasts S1024x128
  shapeCasts_S256x8192_S256x8192 : S256x8192.ShapeCasts S256x8192
  concatenates_S8192x128_S8192x128_S8192x128_S8192x384_d1 : Shape.Concatenates [S8192x128, S8192x128, S8192x128] S8192x384 1
  dot_S1024x128_S128x128_S1024x128_1_0_0_1_n_n_wf : DotDims.WF S1024x128 S128x128 S1024x128 [1] [0] [0] [1] [] []
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S8192x128.size a
  hwx1_2 : ∀ i : grid1.Coords, EltTy.bits .f32 = 32 ∨ (Rect.block (s := S8192x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x8192.size a ≤ S8192x8192.size a
  hwx1_3 : ∀ i : grid1.Coords, EltTy.bits .bf16 = 32 ∨ (Rect.block (s := S8192x8192) S256x8192.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .bf16 = 32 ∨ (Rect.block (s := S8192x128) S1024x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x8192.size a ≤ S8192x8192.size a
  hwx3_0 : ∀ i : grid3.Coords, EltTy.bits .bf16 = 32 ∨ (Rect.block (s := S8192x8192) S256x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S8192x128.size a
  hwx3_1 : ∀ i : grid3.Coords, EltTy.bits .bf16 = 32 ∨ (Rect.block (s := S8192x128) S8192x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S8192x128.size a
  hwx3_2 : ∀ i : grid3.Coords, EltTy.bits .f32 = 32 ∨ (Rect.block (s := S8192x128) S256x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S8192x128.size a
  hwx4_0 : ∀ i : grid4.Coords, EltTy.bits .f32 = 32 ∨ (Rect.block (s := S8192x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S8192x128.size a
  hwx4_2 : ∀ i : grid4.Coords, EltTy.bits .bf16 = 32 ∨ (Rect.block (s := S8192x128) S1024x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x8192.size a ≤ S8192x8192.size a
  hwx5_0 : ∀ i : grid5.Coords, EltTy.bits .bf16 = 32 ∨ (Rect.block (s := S8192x8192) S256x8192.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S8192x128.size a ≤ S8192x128.size a
  hwx5_1 : ∀ i : grid5.Coords, EltTy.bits .bf16 = 32 ∨ (Rect.block (s := S8192x128) S8192x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S8192x128.size a
  hwx5_2 : ∀ i : grid5.Coords, EltTy.bits .f32 = 32 ∨ (Rect.block (s := S8192x128) S256x128.size (cc5_transform_2 i) (hinb5_2 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S256x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S256x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1_0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1_1) S256x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S8192x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S256x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v3) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1024x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v1_1) S256x8192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S8192x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v5) S256x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩
abbrev S8192x384 : Shape := ⟨2, ![8192, 384]⟩

abbrev nBuf : Space → Nat
  | .hbm => 21
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S_, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S8192x128, .f32⟩
  | .hbm, ⟨19, _⟩ => ⟨S8192x128, .f32⟩
  | .hbm, ⟨20, _⟩ => ⟨S8192x384, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call2_cst : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]

class Facts₀ : Prop where
  bcast_S_S8192x128 : S_.BroadcastsInDim S8192x128 (![] : Fin 0 → Fin S8192x128.rank)
  concatenates_S8192x128_S8192x128_S8192x128_S8192x384_d1 : Shape.Concatenates [S8192x128, S8192x128, S8192x128] S8192x384 1
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KernelFrame.R0.lean ====
/-
  Region 0 of @main (the call of `cc0__xw_kernel`), at any contents `V` of the core's buffers when the region is entered.
  A window's block at a grid point is the part of its array the point's index selects; an input window's staging
  buffer holds that block whenever the body runs; the body reads its input blocks whole and overwrites each output
  block whole, so after the body each output buffer holds one pure function of the input blocks.
-/
import proofs.«144917_g43490838839794_cont_8to1_b_342_2_alg».proof.Proof.Gen.Kernel.Launch
import proofs.«144917_g43490838839794_cont_8to1_b_342_2_alg».proof.Proof.Gen.Kernel.Skeleton
import proofs.«144917_g43490838839794_cont_8to1_b_342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array (as the region finds it) that the point's block index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the point's block whenever the body runs, whether the block was fetched at
    this point or is still there from an earlier point with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds the point's block whenever the body runs, whether the block was fetched at
    this point or is still there from an earlier point with the same block index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_S1024x128 : Rect S1024x128 := Rect.unit (s := S1024x128) ![0, 0] S1024x128.size inb_S1024x128_S1024x128_0_0
abbrev r0_S128x128 : Rect S128x128 := Rect.unit (s := S128x128) ![0, 0] S128x128.size inb_S128x128_S128x128_0_0

/-- What the body leaves in output window 2's buffer: its one store, of a pure function of the loaded input blocks. -/
def out0_2 (x0 : Vec F S1024x128 .f32) (x1 : Vec F S128x128 .f32) : Vec F S1024x128 .bf16 :=
  View.canon [⟨r0_S1024x128, k0_pay1 (View.ld x0 r0_S1024x128) (View.ld x1 r0_S128x128)⟩]

/-- That store covers the whole buffer. -/
theorem cover0_2 (p0 : Vec F S1024x128 .bf16) (y : S1024x128.Idx) :
    ∃ pc ∈ ([⟨r0_S1024x128, p0⟩] : List (View.Piece (Elt F) S1024x128 .bf16)), y ∈ pc.1.set :=
  View.cover_of_tiled [⟨r0_S1024x128, p0⟩] S1024x128.size (by rfl) y

set_option maxHeartbeats 4000000 in
/-- The body, run on whole staging buffers holding the input blocks (the output buffers holding anything), ends with the
    inputs as they were and each output buffer at the function above. -/
theorem sound_kernel0 (c : Dev nD) (E : Set ℕ) (i : grid0.Coords) (arg0 : Memref sig .tc .vmem S1024x128 .f32) (harg0 : arg0.IsWhole) (arg1 : Memref sig .tc .vmem S128x128 .f32) (harg1 : arg1.IsWhole) (arg2 : Memref sig .tc .vmem S1024x128 .bf16) (harg2 : arg2.IsWhole)
    (x0 : Vec F S1024x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__xw_kernel i arg0 harg0 arg1 harg1 arg2 harg2) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each input
    buffer still at its block and each output buffer at its function of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: its input buffers hold their blocks, so the triple above applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KernelFrame.R1.lean ====
/-
  Region 1 of @main (the call of `cc1__layer0_kernel`), at any contents `V` of the core's buffers when the region is entered.
  A window's block at a grid point is the part of its array the point's index selects; an input window's staging
  buffer holds that block whenever the body runs; the body reads its input blocks whole and overwrites each output
  block whole, so after the body each output buffer holds one pure function of the input blocks.
-/
import proofs.«144917_g43490838839794_cont_8to1_b_342_2_alg».proof.Proof.Gen.Kernel.Launch
import proofs.«144917_g43490838839794_cont_8to1_b_342_2_alg».proof.Proof.Gen.Kernel.Skeleton
import proofs.«144917_g43490838839794_cont_8to1_b_342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array (as the region finds it) that the point's block index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the point's block whenever the body runs, whether the block was fetched at
    this point or is still there from an earlier point with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds the point's block whenever the body runs, whether the block was fetched at
    this point or is still there from an earlier point with the same block index. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_S256x8192 : Rect S256x8192 := Rect.unit (s := S256x8192) ![0, 0] S256x8192.size inb_S256x8192_S256x8192_0_0
abbrev r1_S8192x128 : Rect S8192x128 := Rect.unit (s := S8192x128) ![0, 0] S8192x128.size inb_S8192x128_S8192x128_0_0
abbrev r1_S256x128 : Rect S256x128 := Rect.unit (s := S256x128) ![0, 0] S256x128.size inb_S256x128_S256x128_0_0

/-- What the body leaves in output window 2's buffer: its one store, of a pure function of the loaded input blocks. -/
def out1_2 (x0 : Vec F S256x8192 .f32) (x1 : Vec F S8192x128 .bf16) : Vec F S256x128 .f32 :=
  View.canon [⟨r1_S256x128, k1_pay2 (View.ld x0 r1_S256x8192) (View.ld x1 r1_S8192x128)⟩]

/-- That store covers the whole buffer. -/
theorem cover1_2 (p0 : Vec F S256x128 .f32) (y : S256x128.Idx) :
    ∃ pc ∈ ([⟨r1_S256x128, p0⟩] : List (View.Piece (Elt F) S256x128 .f32)), y ∈ pc.1.set :=
  View.cover_of_tiled [⟨r1_S256x128, p0⟩] S256x128.size (by rfl) y

/-- What the body leaves in output window 3's buffer: its one store, of a pure function of the loaded input blocks. -/
def out1_3 (x0 : Vec F S256x8192 .f32) : Vec F S256x8192 .bf16 :=
  View.canon [⟨r1_S256x8192, k1_pay1 (View.ld x0 r1_S256x8192)⟩]

/-- That store covers the whole buffer. -/
theorem cover1_3 (p0 : Vec F S256x8192 .bf16) (y : S256x8192.Idx) :
    ∃ pc ∈ ([⟨r1_S256x8192, p0⟩] : List (View.Piece (Elt F) S256x8192 .bf16)), y ∈ pc.1.set :=
  View.cover_of_tiled [⟨r1_S256x8192, p0⟩] S256x8192.size (by rfl) y

set_option maxHeartbeats 4000000 in
/-- The body, run on whole staging buffers holding the input blocks (the output buffers holding anything), ends with the
    inputs as they were and each output buffer at the function above. -/
theorem sound_kernel1 (c : Dev nD) (E : Set ℕ) (i : grid1.Coords) (arg0 : Memref sig .tc .vmem S256x8192 .f32) (harg0 : arg0.IsWhole) (arg1 : Memref sig .tc .vmem S8192x128 .bf16) (harg1 : arg1.IsWhole) (arg2 : Memref sig .tc .vmem S256x128 .f32) (harg2 : arg2.IsWhole) (arg3 : Memref sig .tc .vmem S256x8192 .bf16) (harg3 : arg3.IsWhole)
    (x0 : Vec F S256x8192 .f32) (x1 : Vec F S8192x128 .bf16) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (out1_2 x0 x1) ∗ owns (c : Thread nD τ) arg3 fullShare (out1_3 x0)) -∗ K ⟨⟩))
      ⊢ wp frame (wpE (defs₀ (F := F)) Variants.none c none) E (cc1__layer0_kernel i arg0 harg0 arg1 harg1 arg2 harg2 arg3 harg3) K := by
  simp only [cc1__layer0_kernel_eq_skeleton]; unfold cc1__layer0_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-- The pipeline's proof data on core `c`: the arrays as the region finds them; after the body at point `t` each input
    buffer still at its block and each output buffer at its function of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: its input buffers hold their blocks, so the triple above applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KernelFrame.R2.lean ====
/-
  Region 2 of @main (the call of `cc2__xw_kernel`), at any contents `V` of the core's buffers when the region is entered.
  A window's block at a grid point is the part of its array the point's index selects; an input window's staging
  buffer holds that block whenever the body runs; the body reads its input blocks whole and overwrites each output
  block whole, so after the body each output buffer holds one pure function of the input blocks.
-/
import proofs.«144917_g43490838839794_cont_8to1_b_342_2_alg».proof.Proof.Gen.Kernel.Launch
import proofs.«144917_g43490838839794_cont_8to1_b_342_2_alg».proof.Proof.Gen.Kernel.Skeleton
import proofs.«144917_g43490838839794_cont_8to1_b_342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array (as the region finds it) that the point's block index selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the point's block whenever the body runs, whether the block was fetched at
    this point or is still there from an earlier point with the same block index. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds the point's block whenever the body runs, whether the block was fetched at
    this point or is still there from an earlier point with the same block index. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_S1024x128 : Rect S1024x128 := Rect.unit (s := S1024x128) ![0, 0] S1024x128.size inb_S1024x128_S1024x128_0_0
abbrev r2_S128x128 : Rect S128x128 := Rect.unit (s := S128x128) ![0, 0] S128x128.size inb_S128x128_S128x128_0_0

/-- What the body leaves in output window 2's buffer: its one store, of a pure function of the loaded input blocks. -/
def out2_2 (x0 : Vec F S1024x128 .f32) (x1 : Vec F S128x128 .f32) : Vec F S1024x128 .bf16 :=
  View.canon [⟨r2_S1024x128, k2_pay1 (View.ld x0 r2_S1024x128) (View.ld x1 r2_S128x128)⟩]

/-- That store covers the whole buffer. -/
theorem cover2_2 (p0 : Vec F S1024x128 .bf16) (y : S1024x128.Idx) :
    ∃ pc ∈ ([⟨r2_S1024x128, p0⟩] : List (View.Piece (Elt F) S1024x128 .bf16)), y ∈ pc.1.set :=
  View.cover_of_tiled [⟨r2_S1024x128, p0⟩] S1024x128.size (by rfl) y

set_option maxHeartbeats 4000000 in
/-- The body, run on whole staging buffers holding the input blocks (the output buffers holding anything), ends with the
    inputs as they were and each output buffer at the function above. -/
theorem sound_kernel2 (c : Dev nD) (E : Set ℕ) (i : grid2.Coords) (arg0 : Memref sig .tc .vmem S1024x128 .f32) (harg0 : arg0.IsWhole) (arg1 : Memref sig .tc .vmem S128x128 .f32) (harg1 : arg1.IsWhole) (arg2 : Memref sig .tc .vmem S1024x128 .bf16) (harg2 : arg2.IsWhole)
    (x0 : Vec F S1024x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__xw_kernel i arg0 harg0 arg1 harg1 arg2 harg2) K := by
  simp only [cc2__xw_kernel_eq_skeleton]; unfold cc2__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each input
    buffer still at its block and each output buffer at its function of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: its input buffers hold their blocks, so the triple above applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KernelFrame.R3.lean ====
/-
  Region 3 of @main (the call of `cc3__layer_kernel`), at any contents `V` of the core's buffers when the region is entered.
  A window's block at a grid point is the part of its array the point's index selects; an input window's staging
  buffer holds that block whenever the body runs; the body reads its input blocks whole and overwrites each output
  block whole, so after the body each output buffer holds one pure function of the input blocks.
-/
import proofs.«144917_g43490838839794_cont_8to1_b_342_2_alg».proof.Proof.Gen.Kernel.Launch
import proofs.«144917_g43490838839794_cont_8to1_b_342_2_alg».proof.Proof.Gen.Kernel.Skeleton
import proofs.«144917_g43490838839794_cont_8to1_b_342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array (as the region finds it) that the point's block index selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the point's block whenever the body runs, whether the block was fetched at
    this point or is still there from an earlier point with the same block index. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds the point's block whenever the body runs, whether the block was fetched at
    this point or is still there from an earlier point with the same block index. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_S256x8192 : Rect S256x8192 := Rect.unit (s := S256x8192) ![0, 0] S256x8192.size inb_S256x8192_S256x8192_0_0
abbrev r3_S8192x128 : Rect S8192x128 := Rect.unit (s := S8192x128) ![0, 0] S8192x128.size inb_S8192x128_S8192x128_0_0
abbrev r3_S256x128 : Rect S256x128 := Rect.unit (s := S256x128) ![0, 0] S256x128.size inb_S256x128_S256x128_0_0

/-- What the body leaves in output window 2's buffer: its one store, of a pure function of the loaded input blocks. -/
def out3_2 (x0 : Vec F S256x8192 .bf16) (x1 : Vec F S8192x128 .bf16) : Vec F S256x128 .f32 :=
  View.canon [⟨r3_S256x128, k3_pay1 (View.ld x0 r3_S256x8192) (View.ld x1 r3_S8192x128)⟩]

/-- That store covers the whole buffer. -/
theorem cover3_2 (p0 : Vec F S256x128 .f32) (y : S256x128.Idx) :
    ∃ pc ∈ ([⟨r3_S256x128, p0⟩] : List (View.Piece (Elt F) S256x128 .f32)), y ∈ pc.1.set :=
  View.cover_of_tiled [⟨r3_S256x128, p0⟩] S256x128.size (by rfl) y

set_option maxHeartbeats 4000000 in
/-- The body, run on whole staging buffers holding the input blocks (the output buffers holding anything), ends with the
    inputs as they were and each output buffer at the function above. -/
theorem sound_kernel3 (c : Dev nD) (E : Set ℕ) (i : grid3.Coords) (arg0 : Memref sig .tc .vmem S256x8192 .bf16) (harg0 : arg0.IsWhole) (arg1 : Memref sig .tc .vmem S8192x128 .bf16) (harg1 : arg1.IsWhole) (arg2 : Memref sig .tc .vmem S256x128 .f32) (harg2 : arg2.IsWhole)
    (x0 : Vec F S256x8192 .bf16) (x1 : Vec F S8192x128 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__layer_kernel i arg0 harg0 arg1 harg1 arg2 harg2) K := by
  simp only [cc3__layer_kernel_eq_skeleton]; unfold cc3__layer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each input
    buffer still at its block and each output buffer at its function of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: its input buffers hold their blocks, so the triple above applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.KernelFrame.R4.lean ====
/-
  Region 4 of @main (the call of `cc4__xw_kernel`), at any contents `V` of the core's buffers when the region is entered.
  A window's block at a grid point is the part of its array the point's index selects; an input window's staging
  buffer holds that block whenever the body runs; the body reads its input blocks whole and overwrites each output
  block whole, so after the body each output buffer holds one pure function of the input blocks.
-/
import proofs.«144917_g43490838839794_cont_8to1_b_342_2_alg».proof.Proof.Gen.Kernel.Launch
import proofs.«144917_g43490838839794_cont_8to1_b_342_2_alg».proof.Proof.Gen.Kernel.Skeleton
import proofs.«144917_g43490838839794_cont_8to1_b_342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array (as the region finds it) that the point's block index selects. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds the point's block whenever the body runs, whether the block was fetched at
    this point or is still there from an earlier point with the same block index. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's staging buffer holds the point's block whenever the body runs, whether the block was fetched at
    this point or is still there from an earlier point with the same block index. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_S1024x128 : Rect S1024x128 := Rect.unit (s := S1024x128) ![0, 0] S1024x128.size inb_S1024x128_S1024x128_0_0
abbrev r4_S128x128 : Rect S128x128 := Rect.unit (s := S128x128) ![0, 0] S128x128.size inb_S128x128_S128x128_0_0

/-- What the body leaves in output window 2's buffer: its one store, of a pure function of the loaded input blocks. -/
def out4_2 (x0 : Vec F S1024x128 .f32) (x1 : Vec F S128x128 .f32) : Vec F S1024x128 .bf16 :=
  View.canon [⟨r4_S1024x128, k4_pay1 (View.ld x0 r4_S1024x128) (View.ld x1 r4_S128x128)⟩]

/-- That store covers the whole buffer. -/
theorem cover4_2 (p0 : Vec F S1024x128 .bf16) (y : S1024x128.Idx) :
    ∃ pc ∈ ([⟨r4_S1024x128, p0⟩] : List (View.Piece (Elt F) S1024x128 .bf16)), y ∈ pc.1.set :=
  View.cover_of_tiled [⟨r4_S1024x128, p0⟩] S1024x128.size (by rfl) y

set_option maxHeartbeats 4000000 in
/-- The body, run on whole staging buffers holding the input blocks (the output buffers holding anything), ends with the
    inputs as they were and each output buffer at the function above. -/
theorem sound_kernel4 (c : Dev nD) (E : Set ℕ) (i : grid4.Coords) (arg0 : Memref sig .tc .vmem S1024x128 .f32) (harg0 : arg0.IsWhole) (arg1 : Memref sig .tc .vmem S128x128 .f32) (harg1 : arg1.IsWhole) (arg2 : Memref sig .tc .vmem S1024x128 .bf16) (harg2 : arg2.IsWhole)
    (x0 : Vec F S1024x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__xw_kernel i arg0 harg0 arg1 harg1 arg2 harg2) K := by
  simp only [cc4__xw_kernel_eq_skeleton]; unfold cc4__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data on core `c`: the arrays as the region finds them; after the body at point `t` each input
    buffer still at its block and each output buffer at its function of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: its input buffers hold their blocks, so the triple above applies; the rest passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.Kernel.Frame

end
-- ==== Proof.KernelFrame.R5.lean ====
/-
  Region 5 of @main (the call of `cc5__layer_kernel`), at any contents `V` of the core's buffers when the region is entered.
  A window's block at a grid point is the part of its array the point's index selects; an input window's staging
  buffer holds that block whenever the body runs; the body reads its input blocks whole and overwrites each output
  block whole, so after the body each output buffer holds one pure function of the input blocks.
-/
import proofs.«144917_g43490838839794_cont_8to1_b_342_2_alg».proof.Proof.Gen.Kernel.Launch
import proofs.«144917_g43490838839794_cont_8to1_b_342_2_alg».proof.Proof.Gen.Kernel.Skeleton
import proofs.«144917_g43490838839794_cont_8to1_b_342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array (as the region finds it) that the point's block index selects. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the point's block whenever the body runs, whether the block was fetched at
    this point or is still there from an earlier point with the same block index. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds the point's block whenever the body runs, whether the block was fetched at
    this point or is still there from an earlier point with the same block index. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_S256x8192 : Rect S256x8192 := Rect.unit (s := S256x8192) ![0, 0] S256x8192.size inb_S256x8192_S256x8192_0_0
abbrev r5_S8192x128 : Rect S8192x128 := Rect.unit (s := S8192x128) ![0, 0] S8192x128.size inb_S8192x128_S8192x128_0_0
abbrev r5_S256x128 : Rect S256x128 := Rect.unit (s := S256x128) ![0, 0] S256x128.size inb_S256x128_S256x128_0_0

/-- What the body leaves in output window 2's buffer: its one store, of a pure function of the loaded input blocks. -/
def out5_2 (x0 : Vec F S256x8192 .bf16) (x1 : Vec F S8192x128 .bf16) : Vec F S256x128 .f32 :=
  View.canon [⟨r5_S256x128, k5_pay1 (View.ld x0 r5_S256x8192) (View.ld x1 r5_S8192x128)⟩]

/-- That store covers the whole buffer. -/
theorem cover5_2 (p0 : Vec F S256x128 .f32) (y : S256x128.Idx) :
    ∃ pc ∈ ([⟨r5_S256x128, p0⟩] : List (View.Piece (Elt F) S256x128 .f32)), y ∈ pc.1.set :=
  View.cover_of_tiled [⟨r5_S256x128, p0⟩] S256x128.size (by rfl) y

set_option maxHeartbeats 4000000 in
/-- The body, run on whole staging buffers holding the input blocks (the output buffers holding anything), ends with the
    inputs as they were and each output buffer at the function above. -/
theorem sound_kernel5 (c : Dev nD) (E : Set ℕ) (i : grid5.Coords) (arg0 : Memref sig .tc .vmem S256x8192 .bf16) (harg0 : arg0.IsWhole) (arg1 : Memref sig .tc .vmem S8192x128 .bf16) (harg1 : arg1.IsWhole) (arg2 : Memref sig .tc .vmem S256x128 .f32) (harg2 : arg2.IsWhole)
    (x0 : Vec F S256x8192 .bf16) (x1 : Vec F S8192x128 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__layer_kernel i arg0 harg0 arg1 harg1 arg2 harg2) K := by
  simp only [cc5__layer_kernel_eq_skeleton]; unfold cc5__layer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The pipeline's proof data on core `c`: the arrays as the region finds them; after the body at point `t` each input
    buffer still at its block and each output buffer at its function of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: its input buffers hold their blocks, so the triple above applies; the rest passes through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.Kernel.Frame

end
-- ==== Proof.KernelFrame.Run.lean ====
/-
  The run of @main: six kernel regions one after the other, then the host concatenation.
  The core's buffer contents at each boundary are a fold from the launch memory: a region leaves its windows' arrays at
  what its write-backs make of them and every other buffer as entered; the host line writes the result buffer only.
  From the launch every weakly fair execution terminates, nothing faults, and at the end every unscoped buffer holds
  the last boundary's contents; the argument arrays, written by nothing, walk back through the fold to the launch memory.
-/
import proofs.«144917_g43490838839794_cont_8to1_b_342_2_alg».proof.Proof.KernelFrame.R0
import proofs.«144917_g43490838839794_cont_8to1_b_342_2_alg».proof.Proof.KernelFrame.R1
import proofs.«144917_g43490838839794_cont_8to1_b_342_2_alg».proof.Proof.KernelFrame.R2
import proofs.«144917_g43490838839794_cont_8to1_b_342_2_alg».proof.Proof.KernelFrame.R3
import proofs.«144917_g43490838839794_cont_8to1_b_342_2_alg».proof.Proof.KernelFrame.R4
import proofs.«144917_g43490838839794_cont_8to1_b_342_2_alg».proof.Proof.KernelFrame.R5
import proofs.«144917_g43490838839794_cont_8to1_b_342_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (E1 m ρ) c).arrAt w cfg1.N
theorem W2_arr (c : Dev nD) (w : Fin cfg1.W) :
    W2 m ρ c (Proc.devRef .tc (Pipeline.arrRef spec1 w)) = (dat1 (E1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev E2 : (c : Dev nD) → (b : Ref sig .tc) → Buf (Elt F) ((c : Thread nD τ).loc b) := fun c b => W2 m ρ c b
theorem hF1 (c : Dev nD) (w : Fin cfg1.W) : (dat1 (E1 m ρ) c).arrAt w cfg1.N = E2 m ρ c (Pipeline.arrRef spec1 w) :=
  (W2_arr m ρ c w).symm
theorem hrest1 (c : Dev nD) : ∀ b, b ∉ Finset.univ.image (Pipeline.arrRef spec1) → E2 m ρ c b = E1 m ρ c b :=
  fun b hb => W2_of_ne m ρ c b fun w e => hb (Finset.mem_image.mpr ⟨w, Finset.mem_univ _, e⟩)

/-- At region 2's exit: its arrays at what the pipeline leaves, every other buffer as entered. -/
def W3 (c : Dev nD) : Valuation τ sig (Elt F) :=
  Pipeline.withArrays spec2 c (W2 m ρ c) fun w => (dat2 (E2 m ρ) c).arrAt w cfg2.N
theorem W3_arr (c : Dev nD) (w : Fin cfg2.W) :
    W3 m ρ c (Proc.devRef .tc (Pipeline.arrRef spec2 w)) = (dat2 (E2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev E3 : (c : Dev nD) → (b : Ref sig .tc) → Buf (Elt F) ((c : Thread nD τ).loc b) := fun c b => W3 m ρ c b
theorem hF2 (c : Dev nD) (w : Fin cfg2.W) : (dat2 (E2 m ρ) c).arrAt w cfg2.N = E3 m ρ c (Pipeline.arrRef spec2 w) :=
  (W3_arr m ρ c w).symm
theorem hrest2 (c : Dev nD) : ∀ b, b ∉ Finset.univ.image (Pipeline.arrRef spec2) → E3 m ρ c b = E2 m ρ c b :=
  fun b hb => W3_of_ne m ρ c b fun w e => hb (Finset.mem_image.mpr ⟨w, Finset.mem_univ _, e⟩)

/-- At region 3's exit: its arrays at what the pipeline leaves, every other buffer as entered. -/
def W4 (c : Dev nD) : Valuation τ sig (Elt F) :=
  Pipeline.withArrays spec3 c (W3 m ρ c) fun w => (dat3 (E3 m ρ) c).arrAt w cfg3.N
theorem W4_arr (c : Dev nD) (w : Fin cfg3.W) :
    W4 m ρ c (Proc.devRef .tc (Pipeline.arrRef spec3 w)) = (dat3 (E3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev E4 : (c : Dev nD) → (b : Ref sig .tc) → Buf (Elt F) ((c : Thread nD τ).loc b) := fun c b => W4 m ρ c b
theorem hF3 (c : Dev nD) (w : Fin cfg3.W) : (dat3 (E3 m ρ) c).arrAt w cfg3.N = E4 m ρ c (Pipeline.arrRef spec3 w) :=
  (W4_arr m ρ c w).symm
theorem hrest3 (c : Dev nD) : ∀ b, b ∉ Finset.univ.image (Pipeline.arrRef spec3) → E4 m ρ c b = E3 m ρ c b :=
  fun b hb => W4_of_ne m ρ c b fun w e => hb (Finset.mem_image.mpr ⟨w, Finset.mem_univ _, e⟩)

/-- At region 4's exit: its arrays at what the pipeline leaves, every other buffer as entered. -/
def W5 (c : Dev nD) : Valuation τ sig (Elt F) :=
  Pipeline.withArrays spec4 c (W4 m ρ c) fun w => (dat4 (E4 m ρ) c).arrAt w cfg4.N
theorem W5_arr (c : Dev nD) (w : Fin cfg4.W) :
    W5 m ρ c (Proc.devRef .tc (Pipeline.arrRef spec4 w)) = (dat4 (E4 m ρ) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m ρ c (Proc.devRef .tc b) = W4 m ρ c (Proc.devRef .tc b) := by
  unfold W5; exact Pipeline.withArrays_of_ne spec4 c _ _ b hb
abbrev E5 : (c : Dev nD) → (b : Ref sig .tc) → Buf (Elt F) ((c : Thread nD τ).loc b) := fun c b => W5 m ρ c b
theorem hF4 (c : Dev nD) (w : Fin cfg4.W) : (dat4 (E4 m ρ) c).arrAt w cfg4.N = E5 m ρ c (Pipeline.arrRef spec4 w) :=
  (W5_arr m ρ c w).symm
theorem hrest4 (c : Dev nD) : ∀ b, b ∉ Finset.univ.image (Pipeline.arrRef spec4) → E5 m ρ c b = E4 m ρ c b :=
  fun b hb => W5_of_ne m ρ c b fun w e => hb (Finset.mem_image.mpr ⟨w, Finset.mem_univ _, e⟩)

/-- At region 5's exit: its arrays at what the pipeline leaves, every other buffer as entered. -/
def W6 (c : Dev nD) : Valuation τ sig (Elt F) :=
  Pipeline.withArrays spec5 c (W5 m ρ c) fun w => (dat5 (E5 m ρ) c).arrAt w cfg5.N
theorem W6_arr (c : Dev nD) (w : Fin cfg5.W) :
    W6 m ρ c (Proc.devRef .tc (Pipeline.arrRef spec5 w)) = (dat5 (E5 m ρ) c).arrAt w cfg5.N := by
  unfold W6; exact Pipeline.withArrays_arr spec5 launch5.win.arr_inj c _ _ w
theorem W6_of_ne (c : Dev nD) (b : Ref sig .tc) (hb : ∀ w, Pipeline.arrRef spec5 w ≠ b) :
    W6 m ρ c (Proc.devRef .tc b) = W5 m ρ c (Proc.devRef .tc b) := by
  unfold W6; exact Pipeline.withArrays_of_ne spec5 c _ _ b hb
abbrev E6 : (c : Dev nD) → (b : Ref sig .tc) → Buf (Elt F) ((c : Thread nD τ).loc b) := fun c b => W6 m ρ c b
theorem hF5 (c : Dev nD) (w : Fin cfg5.W) : (dat5 (E5 m ρ) c).arrAt w cfg5.N = E6 m ρ c (Pipeline.arrRef spec5 w) :=
  (W6_arr m ρ c w).symm
theorem hrest5 (c : Dev nD) : ∀ b, b ∉ Finset.univ.image (Pipeline.arrRef spec5) → E6 m ρ c b = E5 m ρ c b :=
  fun b hb => W6_of_ne m ρ c b fun w e => hb (Finset.mem_image.mpr ⟨w, Finset.mem_univ _, e⟩)

/-- After the host concatenation: the end of @main. -/
abbrev W7 : Dev nD → Valuation τ sig (Elt F) := fun c => StableHlo.after hostOps6 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps6 _ hostOps6_writes (by decide : main_arg0 ∉ hostOps6_W)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps6 _ hostOps6_writes (by decide : main_arg1 ∉ hostOps6_W)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((dat1 (E1 m ρ) c).arrAt_in 0 rfl _).trans (A_eq1 (E1 m ρ) c 0))
    _ = W0 m ρ c (Proc.devRef .tc main_arg1) := W1_of_ne m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps6 _ hostOps6_writes (by decide : main_arg2 ∉ hostOps6_W)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 1).trans (((dat0 (E0 m ρ) c).arrAt_in 1 rfl _).trans (A_eq0 (E0 m ρ) c 1))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps6 _ hostOps6_writes (by decide : main_arg3 ∉ hostOps6_W)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := (W3_arr m ρ c 1).trans (((dat2 (E2 m ρ) c).arrAt_in 1 rfl _).trans (A_eq2 (E2 m ρ) c 1))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps6 _ hostOps6_writes (by decide : main_arg4 ∉ hostOps6_W)
    _ = W5 m ρ c (Proc.devRef .tc main_arg4) := W6_of_ne m ρ c main_arg4 (by decide)
    _ = W4 m ρ c (Proc.devRef .tc main_arg4) := (W5_arr m ρ c 1).trans (((dat4 (E4 m ρ) c).arrAt_in 1 rfl _).trans (A_eq4 (E4 m ρ) c 1))
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
  | ⟨4, _⟩ => fun c => dat4 (E4 m ρ) c
  | ⟨5, _⟩ => fun c => dat5 (E5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0: entered from every unscoped buffer at `W0`, left at `W1`. Its arrays are split out of the unscoped buffers
    and put back at the exit contents; the generator register goes into the class invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W1`, left at `W2`. Its arrays are split out of the unscoped buffers
    and put back at the exit contents; the generator register goes into the class invariant and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W2`, left at `W3`. Its arrays are split out of the unscoped buffers
    and put back at the exit contents; the generator register goes into the class invariant and comes out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (E3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W3`, left at `W4`. Its arrays are split out of the unscoped buffers
    and put back at the exit contents; the generator register goes into the class invariant and comes out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (E4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W4`, left at `W5`. Its arrays are split out of the unscoped buffers
    and put back at the exit contents; the generator register goes into the class invariant and comes out; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec4 c (E4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E4 m ρ c) (E5 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W5`, left at `W6`. Its arrays are split out of the unscoped buffers
    and put back at the exit contents; the generator register goes into the class invariant and comes out; nothing is owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E5 m ρ) c).loose
  hwaits := Pipeline.hwaits_of_owed_zero _ _ _ _ L lv 5 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec5 c (E5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (E5 m ρ c) (E6 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a region per kernel call, then the host line from region 5's exit contents. -/
abbrev mainSegs : List (Pipeline.Seg (pcfgs (F := F)) adm (pdats m ρ) () defs₀ 𝒱₀ L lv) :=
  [ .region (reg0 m ρ),
    .region (reg1 m ρ),
    .region (reg2 m ρ),
    .region (reg3 m ρ),
    .region (reg4 m ρ),
    .region (reg5 m ρ),
    .host (hseg hostOps6 hostOps6_sub hostOps6_fresh (W6 m ρ)) ]
theorem main_run (c : Dev nD) : main (F := F) c = Pipeline.Seg.run (mainSegs m ρ) :=
  main_segs (F := F) adm (pdats m ρ) () 𝒱₀ L lv (hseg hostOps6 hostOps6_sub hostOps6_fresh (W6 m ρ))
    (reg0 m ρ) (reg1 m ρ) (reg2 m ρ) (reg3 m ρ) (reg4 m ρ) (reg5 m ρ) rfl c

set_option backward.isDefEq.respectTransparency.types false in
/-- THE RUN: from any memory with zero counters every weakly fair execution of @main terminates, nothing faulting, and in
    every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (StableHlo.after hostOps6 (W6 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: the run, read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c)⟩) (run_all m ρ)

end Cert.Kernel.Frame

end
-- ==== Proof.KernelIdealFrame.R0.lean ====
/-
  Region 0 of @main (the call of `cc0__xw_kernel`), at any contents `V` of the core's buffers when the region is entered.
  A window's block at a grid point is the part of its array the point's index selects; an input window's staging
  buffer holds that block whenever the body runs; the body reads its input blocks whole and overwrites each output
  block whole, so after the body each output buffer holds one pure function of the input blocks.
-/
import proofs.«144917_g43490838839794_cont_8to1_b_342_2_alg».proof.Proof.Gen.KernelIdeal.Launch
import proofs.«144917_g43490838839794_cont_8to1_b_342_2_alg».proof.Proof.Gen.KernelIdeal.Skeleton
import proofs.«144917_g43490838839794_cont_8to1_b_342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array (as the region finds it) that the point's block index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the point's block whenever the body runs, whether the block was fetched at
    this point or is still there from an earlier point with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds the point's block whenever the body runs, whether the block was fetched at
    this point or is still there from an earlier point with the same block index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_S1024x128 : Rect S1024x128 := Rect.unit (s := S1024x128) ![0, 0] S1024x128.size inb_S1024x128_S1024x128_0_0
abbrev r0_S128x128 : Rect S128x128 := Rect.unit (s := S128x128) ![0, 0] S128x128.size inb_S128x128_S128x128_0_0

/-- What the body leaves in output window 2's buffer: its one store, of a pure function of the loaded input blocks. -/
def out0_2 (x0 : Vec F S1024x128 .f32) (x1 : Vec F S128x128 .f32) : Vec F S1024x128 .bf16 :=
  View.canon [⟨r0_S1024x128, k0_pay1 (View.ld x0 r0_S1024x128) (View.ld x1 r0_S128x128)⟩]

/-- That store covers the whole buffer. -/
theorem cover0_2 (p0 : Vec F S1024x128 .bf16) (y : S1024x128.Idx) :
    ∃ pc ∈ ([⟨r0_S1024x128, p0⟩] : List (View.Piece (Elt F) S1024x128 .bf16)), y ∈ pc.1.set :=
  View.cover_of_tiled [⟨r0_S1024x128, p0⟩] S1024x128.size (by rfl) y

set_option maxHeartbeats 4000000 in
/-- The body, run on whole staging buffers holding the input blocks (the output buffers holding anything), ends with the
    inputs as they were and each output buffer at the function above. -/
theorem sound_kernel0 (c : Dev nD) (E : Set ℕ) (i : grid0.Coords) (arg0 : Memref sig .tc .vmem S1024x128 .f32) (harg0 : arg0.IsWhole) (arg1 : Memref sig .tc .vmem S128x128 .f32) (harg1 : arg1.IsWhole) (arg2 : Memref sig .tc .vmem S1024x128 .bf16) (harg2 : arg2.IsWhole)
    (x0 : Vec F S1024x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__xw_kernel i arg0 harg0 arg1 harg1 arg2 harg2) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each input
    buffer still at its block and each output buffer at its function of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: its input buffers hold their blocks, so the triple above applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdealFrame.R1.lean ====
/-
  Region 1 of @main (the call of `cc1__layer0_kernel`), at any contents `V` of the core's buffers when the region is entered.
  A window's block at a grid point is the part of its array the point's index selects; an input window's staging
  buffer holds that block whenever the body runs; the body reads its input blocks whole and overwrites each output
  block whole, so after the body each output buffer holds one pure function of the input blocks.
-/
import proofs.«144917_g43490838839794_cont_8to1_b_342_2_alg».proof.Proof.Gen.KernelIdeal.Launch
import proofs.«144917_g43490838839794_cont_8to1_b_342_2_alg».proof.Proof.Gen.KernelIdeal.Skeleton
import proofs.«144917_g43490838839794_cont_8to1_b_342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array (as the region finds it) that the point's block index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the point's block whenever the body runs, whether the block was fetched at
    this point or is still there from an earlier point with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds the point's block whenever the body runs, whether the block was fetched at
    this point or is still there from an earlier point with the same block index. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_S256x8192 : Rect S256x8192 := Rect.unit (s := S256x8192) ![0, 0] S256x8192.size inb_S256x8192_S256x8192_0_0
abbrev r1_S8192x128 : Rect S8192x128 := Rect.unit (s := S8192x128) ![0, 0] S8192x128.size inb_S8192x128_S8192x128_0_0
abbrev r1_S256x128 : Rect S256x128 := Rect.unit (s := S256x128) ![0, 0] S256x128.size inb_S256x128_S256x128_0_0

/-- What the body leaves in output window 2's buffer: its one store, of a pure function of the loaded input blocks. -/
def out1_2 (x0 : Vec F S256x8192 .f32) (x1 : Vec F S8192x128 .bf16) : Vec F S256x128 .f32 :=
  View.canon [⟨r1_S256x128, k1_pay2 (View.ld x0 r1_S256x8192) (View.ld x1 r1_S8192x128)⟩]

/-- That store covers the whole buffer. -/
theorem cover1_2 (p0 : Vec F S256x128 .f32) (y : S256x128.Idx) :
    ∃ pc ∈ ([⟨r1_S256x128, p0⟩] : List (View.Piece (Elt F) S256x128 .f32)), y ∈ pc.1.set :=
  View.cover_of_tiled [⟨r1_S256x128, p0⟩] S256x128.size (by rfl) y

/-- What the body leaves in output window 3's buffer: its one store, of a pure function of the loaded input blocks. -/
def out1_3 (x0 : Vec F S256x8192 .f32) : Vec F S256x8192 .bf16 :=
  View.canon [⟨r1_S256x8192, k1_pay1 (View.ld x0 r1_S256x8192)⟩]

/-- That store covers the whole buffer. -/
theorem cover1_3 (p0 : Vec F S256x8192 .bf16) (y : S256x8192.Idx) :
    ∃ pc ∈ ([⟨r1_S256x8192, p0⟩] : List (View.Piece (Elt F) S256x8192 .bf16)), y ∈ pc.1.set :=
  View.cover_of_tiled [⟨r1_S256x8192, p0⟩] S256x8192.size (by rfl) y

set_option maxHeartbeats 4000000 in
/-- The body, run on whole staging buffers holding the input blocks (the output buffers holding anything), ends with the
    inputs as they were and each output buffer at the function above. -/
theorem sound_kernel1 (c : Dev nD) (E : Set ℕ) (i : grid1.Coords) (arg0 : Memref sig .tc .vmem S256x8192 .f32) (harg0 : arg0.IsWhole) (arg1 : Memref sig .tc .vmem S8192x128 .bf16) (harg1 : arg1.IsWhole) (arg2 : Memref sig .tc .vmem S256x128 .f32) (harg2 : arg2.IsWhole) (arg3 : Memref sig .tc .vmem S256x8192 .bf16) (harg3 : arg3.IsWhole)
    (x0 : Vec F S256x8192 .f32) (x1 : Vec F S8192x128 .bf16) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (out1_2 x0 x1) ∗ owns (c : Thread nD τ) arg3 fullShare (out1_3 x0)) -∗ K ⟨⟩))
      ⊢ wp frame (wpE (defs₀ (F := F)) Variants.none c none) E (cc1__layer0_kernel i arg0 harg0 arg1 harg1 arg2 harg2 arg3 harg3) K := by
  simp only [cc1__layer0_kernel_eq_skeleton]; unfold cc1__layer0_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-- The pipeline's proof data on core `c`: the arrays as the region finds them; after the body at point `t` each input
    buffer still at its block and each output buffer at its function of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: its input buffers hold their blocks, so the triple above applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KernelIdealFrame.R2.lean ====
/-
  Region 2 of @main (the call of `cc2__xw_kernel`), at any contents `V` of the core's buffers when the region is entered.
  A window's block at a grid point is the part of its array the point's index selects; an input window's staging
  buffer holds that block whenever the body runs; the body reads its input blocks whole and overwrites each output
  block whole, so after the body each output buffer holds one pure function of the input blocks.
-/
import proofs.«144917_g43490838839794_cont_8to1_b_342_2_alg».proof.Proof.Gen.KernelIdeal.Launch
import proofs.«144917_g43490838839794_cont_8to1_b_342_2_alg».proof.Proof.Gen.KernelIdeal.Skeleton
import proofs.«144917_g43490838839794_cont_8to1_b_342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array (as the region finds it) that the point's block index selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the point's block whenever the body runs, whether the block was fetched at
    this point or is still there from an earlier point with the same block index. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds the point's block whenever the body runs, whether the block was fetched at
    this point or is still there from an earlier point with the same block index. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_S1024x128 : Rect S1024x128 := Rect.unit (s := S1024x128) ![0, 0] S1024x128.size inb_S1024x128_S1024x128_0_0
abbrev r2_S128x128 : Rect S128x128 := Rect.unit (s := S128x128) ![0, 0] S128x128.size inb_S128x128_S128x128_0_0

/-- What the body leaves in output window 2's buffer: its one store, of a pure function of the loaded input blocks. -/
def out2_2 (x0 : Vec F S1024x128 .f32) (x1 : Vec F S128x128 .f32) : Vec F S1024x128 .bf16 :=
  View.canon [⟨r2_S1024x128, k2_pay1 (View.ld x0 r2_S1024x128) (View.ld x1 r2_S128x128)⟩]

/-- That store covers the whole buffer. -/
theorem cover2_2 (p0 : Vec F S1024x128 .bf16) (y : S1024x128.Idx) :
    ∃ pc ∈ ([⟨r2_S1024x128, p0⟩] : List (View.Piece (Elt F) S1024x128 .bf16)), y ∈ pc.1.set :=
  View.cover_of_tiled [⟨r2_S1024x128, p0⟩] S1024x128.size (by rfl) y

set_option maxHeartbeats 4000000 in
/-- The body, run on whole staging buffers holding the input blocks (the output buffers holding anything), ends with the
    inputs as they were and each output buffer at the function above. -/
theorem sound_kernel2 (c : Dev nD) (E : Set ℕ) (i : grid2.Coords) (arg0 : Memref sig .tc .vmem S1024x128 .f32) (harg0 : arg0.IsWhole) (arg1 : Memref sig .tc .vmem S128x128 .f32) (harg1 : arg1.IsWhole) (arg2 : Memref sig .tc .vmem S1024x128 .bf16) (harg2 : arg2.IsWhole)
    (x0 : Vec F S1024x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__xw_kernel i arg0 harg0 arg1 harg1 arg2 harg2) K := by
  simp only [cc2__xw_kernel_eq_skeleton]; unfold cc2__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each input
    buffer still at its block and each output buffer at its function of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: its input buffers hold their blocks, so the triple above applies; the rest passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KernelIdealFrame.R3.lean ====
/-
  Region 3 of @main (the call of `cc3__layer_kernel`), at any contents `V` of the core's buffers when the region is entered.
  A window's block at a grid point is the part of its array the point's index selects; an input window's staging
  buffer holds that block whenever the body runs; the body reads its input blocks whole and overwrites each output
  block whole, so after the body each output buffer holds one pure function of the input blocks.
-/
import proofs.«144917_g43490838839794_cont_8to1_b_342_2_alg».proof.Proof.Gen.KernelIdeal.Launch
import proofs.«144917_g43490838839794_cont_8to1_b_342_2_alg».proof.Proof.Gen.KernelIdeal.Skeleton
import proofs.«144917_g43490838839794_cont_8to1_b_342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array (as the region finds it) that the point's block index selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the point's block whenever the body runs, whether the block was fetched at
    this point or is still there from an earlier point with the same block index. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds the point's block whenever the body runs, whether the block was fetched at
    this point or is still there from an earlier point with the same block index. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_S256x8192 : Rect S256x8192 := Rect.unit (s := S256x8192) ![0, 0] S256x8192.size inb_S256x8192_S256x8192_0_0
abbrev r3_S8192x128 : Rect S8192x128 := Rect.unit (s := S8192x128) ![0, 0] S8192x128.size inb_S8192x128_S8192x128_0_0
abbrev r3_S256x128 : Rect S256x128 := Rect.unit (s := S256x128) ![0, 0] S256x128.size inb_S256x128_S256x128_0_0

/-- What the body leaves in output window 2's buffer: its one store, of a pure function of the loaded input blocks. -/
def out3_2 (x0 : Vec F S256x8192 .bf16) (x1 : Vec F S8192x128 .bf16) : Vec F S256x128 .f32 :=
  View.canon [⟨r3_S256x128, k3_pay1 (View.ld x0 r3_S256x8192) (View.ld x1 r3_S8192x128)⟩]

/-- That store covers the whole buffer. -/
theorem cover3_2 (p0 : Vec F S256x128 .f32) (y : S256x128.Idx) :
    ∃ pc ∈ ([⟨r3_S256x128, p0⟩] : List (View.Piece (Elt F) S256x128 .f32)), y ∈ pc.1.set :=
  View.cover_of_tiled [⟨r3_S256x128, p0⟩] S256x128.size (by rfl) y

set_option maxHeartbeats 4000000 in
/-- The body, run on whole staging buffers holding the input blocks (the output buffers holding anything), ends with the
    inputs as they were and each output buffer at the function above. -/
theorem sound_kernel3 (c : Dev nD) (E : Set ℕ) (i : grid3.Coords) (arg0 : Memref sig .tc .vmem S256x8192 .bf16) (harg0 : arg0.IsWhole) (arg1 : Memref sig .tc .vmem S8192x128 .bf16) (harg1 : arg1.IsWhole) (arg2 : Memref sig .tc .vmem S256x128 .f32) (harg2 : arg2.IsWhole)
    (x0 : Vec F S256x8192 .bf16) (x1 : Vec F S8192x128 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__layer_kernel i arg0 harg0 arg1 harg1 arg2 harg2) K := by
  simp only [cc3__layer_kernel_eq_skeleton]; unfold cc3__layer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each input
    buffer still at its block and each output buffer at its function of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: its input buffers hold their blocks, so the triple above applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KernelIdealFrame.R4.lean ====
/-
  Region 4 of @main (the call of `cc4__xw_kernel`), at any contents `V` of the core's buffers when the region is entered.
  A window's block at a grid point is the part of its array the point's index selects; an input window's staging
  buffer holds that block whenever the body runs; the body reads its input blocks whole and overwrites each output
  block whole, so after the body each output buffer holds one pure function of the input blocks.
-/
import proofs.«144917_g43490838839794_cont_8to1_b_342_2_alg».proof.Proof.Gen.KernelIdeal.Launch
import proofs.«144917_g43490838839794_cont_8to1_b_342_2_alg».proof.Proof.Gen.KernelIdeal.Skeleton
import proofs.«144917_g43490838839794_cont_8to1_b_342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array (as the region finds it) that the point's block index selects. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds the point's block whenever the body runs, whether the block was fetched at
    this point or is still there from an earlier point with the same block index. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's staging buffer holds the point's block whenever the body runs, whether the block was fetched at
    this point or is still there from an earlier point with the same block index. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_S1024x128 : Rect S1024x128 := Rect.unit (s := S1024x128) ![0, 0] S1024x128.size inb_S1024x128_S1024x128_0_0
abbrev r4_S128x128 : Rect S128x128 := Rect.unit (s := S128x128) ![0, 0] S128x128.size inb_S128x128_S128x128_0_0

/-- What the body leaves in output window 2's buffer: its one store, of a pure function of the loaded input blocks. -/
def out4_2 (x0 : Vec F S1024x128 .f32) (x1 : Vec F S128x128 .f32) : Vec F S1024x128 .bf16 :=
  View.canon [⟨r4_S1024x128, k4_pay1 (View.ld x0 r4_S1024x128) (View.ld x1 r4_S128x128)⟩]

/-- That store covers the whole buffer. -/
theorem cover4_2 (p0 : Vec F S1024x128 .bf16) (y : S1024x128.Idx) :
    ∃ pc ∈ ([⟨r4_S1024x128, p0⟩] : List (View.Piece (Elt F) S1024x128 .bf16)), y ∈ pc.1.set :=
  View.cover_of_tiled [⟨r4_S1024x128, p0⟩] S1024x128.size (by rfl) y

set_option maxHeartbeats 4000000 in
/-- The body, run on whole staging buffers holding the input blocks (the output buffers holding anything), ends with the
    inputs as they were and each output buffer at the function above. -/
theorem sound_kernel4 (c : Dev nD) (E : Set ℕ) (i : grid4.Coords) (arg0 : Memref sig .tc .vmem S1024x128 .f32) (harg0 : arg0.IsWhole) (arg1 : Memref sig .tc .vmem S128x128 .f32) (harg1 : arg1.IsWhole) (arg2 : Memref sig .tc .vmem S1024x128 .bf16) (harg2 : arg2.IsWhole)
    (x0 : Vec F S1024x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__xw_kernel i arg0 harg0 arg1 harg1 arg2 harg2) K := by
  simp only [cc4__xw_kernel_eq_skeleton]; unfold cc4__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data on core `c`: the arrays as the region finds them; after the body at point `t` each input
    buffer still at its block and each output buffer at its function of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: its input buffers hold their blocks, so the triple above applies; the rest passes through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frame

end
-- ==== Proof.KernelIdealFrame.R5.lean ====
/-
  Region 5 of @main (the call of `cc5__layer_kernel`), at any contents `V` of the core's buffers when the region is entered.
  A window's block at a grid point is the part of its array the point's index selects; an input window's staging
  buffer holds that block whenever the body runs; the body reads its input blocks whole and overwrites each output
  block whole, so after the body each output buffer holds one pure function of the input blocks.
-/
import proofs.«144917_g43490838839794_cont_8to1_b_342_2_alg».proof.Proof.Gen.KernelIdeal.Launch
import proofs.«144917_g43490838839794_cont_8to1_b_342_2_alg».proof.Proof.Gen.KernelIdeal.Skeleton
import proofs.«144917_g43490838839794_cont_8to1_b_342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rectangle of its array (as the region finds it) that the point's block index selects. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the point's block whenever the body runs, whether the block was fetched at
    this point or is still there from an earlier point with the same block index. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds the point's block whenever the body runs, whether the block was fetched at
    this point or is still there from an earlier point with the same block index. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_S256x8192 : Rect S256x8192 := Rect.unit (s := S256x8192) ![0, 0] S256x8192.size inb_S256x8192_S256x8192_0_0
abbrev r5_S8192x128 : Rect S8192x128 := Rect.unit (s := S8192x128) ![0, 0] S8192x128.size inb_S8192x128_S8192x128_0_0
abbrev r5_S256x128 : Rect S256x128 := Rect.unit (s := S256x128) ![0, 0] S256x128.size inb_S256x128_S256x128_0_0

/-- What the body leaves in output window 2's buffer: its one store, of a pure function of the loaded input blocks. -/
def out5_2 (x0 : Vec F S256x8192 .bf16) (x1 : Vec F S8192x128 .bf16) : Vec F S256x128 .f32 :=
  View.canon [⟨r5_S256x128, k5_pay1 (View.ld x0 r5_S256x8192) (View.ld x1 r5_S8192x128)⟩]

/-- That store covers the whole buffer. -/
theorem cover5_2 (p0 : Vec F S256x128 .f32) (y : S256x128.Idx) :
    ∃ pc ∈ ([⟨r5_S256x128, p0⟩] : List (View.Piece (Elt F) S256x128 .f32)), y ∈ pc.1.set :=
  View.cover_of_tiled [⟨r5_S256x128, p0⟩] S256x128.size (by rfl) y

set_option maxHeartbeats 4000000 in
/-- The body, run on whole staging buffers holding the input blocks (the output buffers holding anything), ends with the
    inputs as they were and each output buffer at the function above. -/
theorem sound_kernel5 (c : Dev nD) (E : Set ℕ) (i : grid5.Coords) (arg0 : Memref sig .tc .vmem S256x8192 .bf16) (harg0 : arg0.IsWhole) (arg1 : Memref sig .tc .vmem S8192x128 .bf16) (harg1 : arg1.IsWhole) (arg2 : Memref sig .tc .vmem S256x128 .f32) (harg2 : arg2.IsWhole)
    (x0 : Vec F S256x8192 .bf16) (x1 : Vec F S8192x128 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__layer_kernel i arg0 harg0 arg1 harg1 arg2 harg2) K := by
  simp only [cc5__layer_kernel_eq_skeleton]; unfold cc5__layer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The pipeline's proof data on core `c`: the arrays as the region finds them; after the body at point `t` each input
    buffer still at its block and each output buffer at its function of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: its input buffers hold their blocks, so the triple above applies; the rest passes through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frame

end
-- ==== Proof.KernelIdealFrame.Run.lean ====
/-
  The run of @main: six kernel regions one after the other, then the host concatenation.
  The core's buffer contents at each boundary are a fold from the launch memory: a region leaves its windows' arrays at
  what its write-backs make of them and every other buffer as entered; the host line writes the result buffer only.
  From the launch every weakly fair execution terminates, nothing faults, and at the end every unscoped buffer holds
  the last boundary's contents; the argument arrays, written by nothing, walk back through the fold to the launch memory.
-/
import proofs.«144917_g43490838839794_cont_8to1_b_342_2_alg».proof.Proof.KernelIdealFrame.R0
import proofs.«144917_g43490838839794_cont_8to1_b_342_2_alg».proof.Proof.KernelIdealFrame.R1
import proofs.«144917_g43490838839794_cont_8to1_b_342_2_alg».proof.Proof.KernelIdealFrame.R2
import proofs.«144917_g43490838839794_cont_8to1_b_342_2_alg».proof.Proof.KernelIdealFrame.R3
import proofs.«144917_g43490838839794_cont_8to1_b_342_2_alg».proof.Proof.KernelIdealFrame.R4
import proofs.«144917_g43490838839794_cont_8to1_b_342_2_alg».proof.Proof.KernelIdealFrame.R5
import proofs.«144917_g43490838839794_cont_8to1_b_342_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (E1 m ρ) c).arrAt w cfg1.N
theorem W2_arr (c : Dev nD) (w : Fin cfg1.W) :
    W2 m ρ c (Proc.devRef .tc (Pipeline.arrRef spec1 w)) = (dat1 (E1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev E2 : (c : Dev nD) → (b : Ref sig .tc) → Buf (Elt F) ((c : Thread nD τ).loc b) := fun c b => W2 m ρ c b
theorem hF1 (c : Dev nD) (w : Fin cfg1.W) : (dat1 (E1 m ρ) c).arrAt w cfg1.N = E2 m ρ c (Pipeline.arrRef spec1 w) :=
  (W2_arr m ρ c w).symm
theorem hrest1 (c : Dev nD) : ∀ b, b ∉ Finset.univ.image (Pipeline.arrRef spec1) → E2 m ρ c b = E1 m ρ c b :=
  fun b hb => W2_of_ne m ρ c b fun w e => hb (Finset.mem_image.mpr ⟨w, Finset.mem_univ _, e⟩)

/-- At region 2's exit: its arrays at what the pipeline leaves, every other buffer as entered. -/
def W3 (c : Dev nD) : Valuation τ sig (Elt F) :=
  Pipeline.withArrays spec2 c (W2 m ρ c) fun w => (dat2 (E2 m ρ) c).arrAt w cfg2.N
theorem W3_arr (c : Dev nD) (w : Fin cfg2.W) :
    W3 m ρ c (Proc.devRef .tc (Pipeline.arrRef spec2 w)) = (dat2 (E2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev E3 : (c : Dev nD) → (b : Ref sig .tc) → Buf (Elt F) ((c : Thread nD τ).loc b) := fun c b => W3 m ρ c b
theorem hF2 (c : Dev nD) (w : Fin cfg2.W) : (dat2 (E2 m ρ) c).arrAt w cfg2.N = E3 m ρ c (Pipeline.arrRef spec2 w) :=
  (W3_arr m ρ c w).symm
theorem hrest2 (c : Dev nD) : ∀ b, b ∉ Finset.univ.image (Pipeline.arrRef spec2) → E3 m ρ c b = E2 m ρ c b :=
  fun b hb => W3_of_ne m ρ c b fun w e => hb (Finset.mem_image.mpr ⟨w, Finset.mem_univ _, e⟩)

/-- At region 3's exit: its arrays at what the pipeline leaves, every other buffer as entered. -/
def W4 (c : Dev nD) : Valuation τ sig (Elt F) :=
  Pipeline.withArrays spec3 c (W3 m ρ c) fun w => (dat3 (E3 m ρ) c).arrAt w cfg3.N
theorem W4_arr (c : Dev nD) (w : Fin cfg3.W) :
    W4 m ρ c (Proc.devRef .tc (Pipeline.arrRef spec3 w)) = (dat3 (E3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev E4 : (c : Dev nD) → (b : Ref sig .tc) → Buf (Elt F) ((c : Thread nD τ).loc b) := fun c b => W4 m ρ c b
theorem hF3 (c : Dev nD) (w : Fin cfg3.W) : (dat3 (E3 m ρ) c).arrAt w cfg3.N = E4 m ρ c (Pipeline.arrRef spec3 w) :=
  (W4_arr m ρ c w).symm
theorem hrest3 (c : Dev nD) : ∀ b, b ∉ Finset.univ.image (Pipeline.arrRef spec3) → E4 m ρ c b = E3 m ρ c b :=
  fun b hb => W4_of_ne m ρ c b fun w e => hb (Finset.mem_image.mpr ⟨w, Finset.mem_univ _, e⟩)

/-- At region 4's exit: its arrays at what the pipeline leaves, every other buffer as entered. -/
def W5 (c : Dev nD) : Valuation τ sig (Elt F) :=
  Pipeline.withArrays spec4 c (W4 m ρ c) fun w => (dat4 (E4 m ρ) c).arrAt w cfg4.N
theorem W5_arr (c : Dev nD) (w : Fin cfg4.W) :
    W5 m ρ c (Proc.devRef .tc (Pipeline.arrRef spec4 w)) = (dat4 (E4 m ρ) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m ρ c (Proc.devRef .tc b) = W4 m ρ c (Proc.devRef .tc b) := by
  unfold W5; exact Pipeline.withArrays_of_ne spec4 c _ _ b hb
abbrev E5 : (c : Dev nD) → (b : Ref sig .tc) → Buf (Elt F) ((c : Thread nD τ).loc b) := fun c b => W5 m ρ c b
theorem hF4 (c : Dev nD) (w : Fin cfg4.W) : (dat4 (E4 m ρ) c).arrAt w cfg4.N = E5 m ρ c (Pipeline.arrRef spec4 w) :=
  (W5_arr m ρ c w).symm
theorem hrest4 (c : Dev nD) : ∀ b, b ∉ Finset.univ.image (Pipeline.arrRef spec4) → E5 m ρ c b = E4 m ρ c b :=
  fun b hb => W5_of_ne m ρ c b fun w e => hb (Finset.mem_image.mpr ⟨w, Finset.mem_univ _, e⟩)

/-- At region 5's exit: its arrays at what the pipeline leaves, every other buffer as entered. -/
def W6 (c : Dev nD) : Valuation τ sig (Elt F) :=
  Pipeline.withArrays spec5 c (W5 m ρ c) fun w => (dat5 (E5 m ρ) c).arrAt w cfg5.N
theorem W6_arr (c : Dev nD) (w : Fin cfg5.W) :
    W6 m ρ c (Proc.devRef .tc (Pipeline.arrRef spec5 w)) = (dat5 (E5 m ρ) c).arrAt w cfg5.N := by
  unfold W6; exact Pipeline.withArrays_arr spec5 launch5.win.arr_inj c _ _ w
theorem W6_of_ne (c : Dev nD) (b : Ref sig .tc) (hb : ∀ w, Pipeline.arrRef spec5 w ≠ b) :
    W6 m ρ c (Proc.devRef .tc b) = W5 m ρ c (Proc.devRef .tc b) := by
  unfold W6; exact Pipeline.withArrays_of_ne spec5 c _ _ b hb
abbrev E6 : (c : Dev nD) → (b : Ref sig .tc) → Buf (Elt F) ((c : Thread nD τ).loc b) := fun c b => W6 m ρ c b
theorem hF5 (c : Dev nD) (w : Fin cfg5.W) : (dat5 (E5 m ρ) c).arrAt w cfg5.N = E6 m ρ c (Pipeline.arrRef spec5 w) :=
  (W6_arr m ρ c w).symm
theorem hrest5 (c : Dev nD) : ∀ b, b ∉ Finset.univ.image (Pipeline.arrRef spec5) → E6 m ρ c b = E5 m ρ c b :=
  fun b hb => W6_of_ne m ρ c b fun w e => hb (Finset.mem_image.mpr ⟨w, Finset.mem_univ _, e⟩)

/-- After the host concatenation: the end of @main. -/
abbrev W7 : Dev nD → Valuation τ sig (Elt F) := fun c => StableHlo.after hostOps6 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps6 _ hostOps6_writes (by decide : main_arg0 ∉ hostOps6_W)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (E0 m ρ) c).arrAt_in 0 rfl _).trans (A_eq0 (E0 m ρ) c 0))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps6 _ hostOps6_writes (by decide : main_arg1 ∉ hostOps6_W)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((dat1 (E1 m ρ) c).arrAt_in 0 rfl _).trans (A_eq1 (E1 m ρ) c 0))
    _ = W0 m ρ c (Proc.devRef .tc main_arg1) := W1_of_ne m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps6 _ hostOps6_writes (by decide : main_arg2 ∉ hostOps6_W)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 1).trans (((dat0 (E0 m ρ) c).arrAt_in 1 rfl _).trans (A_eq0 (E0 m ρ) c 1))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps6 _ hostOps6_writes (by decide : main_arg3 ∉ hostOps6_W)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := (W3_arr m ρ c 1).trans (((dat2 (E2 m ρ) c).arrAt_in 1 rfl _).trans (A_eq2 (E2 m ρ) c 1))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps6 _ hostOps6_writes (by decide : main_arg4 ∉ hostOps6_W)
    _ = W5 m ρ c (Proc.devRef .tc main_arg4) := W6_of_ne m ρ c main_arg4 (by decide)
    _ = W4 m ρ c (Proc.devRef .tc main_arg4) := (W5_arr m ρ c 1).trans (((dat4 (E4 m ρ) c).arrAt_in 1 rfl _).trans (A_eq4 (E4 m ρ) c 1))
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
  | ⟨4, _⟩ => fun c => dat4 (E4 m ρ) c
  | ⟨5, _⟩ => fun c => dat5 (E5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0: entered from every unscoped buffer at `W0`, left at `W1`. Its arrays are split out of the unscoped buffers
    and put back at the exit contents; the generator register goes into the class invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W1`, left at `W2`. Its arrays are split out of the unscoped buffers
    and put back at the exit contents; the generator register goes into the class invariant and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W2`, left at `W3`. Its arrays are split out of the unscoped buffers
    and put back at the exit contents; the generator register goes into the class invariant and comes out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (E3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W3`, left at `W4`. Its arrays are split out of the unscoped buffers
    and put back at the exit contents; the generator register goes into the class invariant and comes out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (E4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W4`, left at `W5`. Its arrays are split out of the unscoped buffers
    and put back at the exit contents; the generator register goes into the class invariant and comes out; nothing is owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec4 c (E4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E4 m ρ c) (E5 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W5`, left at `W6`. Its arrays are split out of the unscoped buffers
    and put back at the exit contents; the generator register goes into the class invariant and comes out; nothing is owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E5 m ρ) c).loose
  hwaits := Pipeline.hwaits_of_owed_zero _ _ _ _ L lv 5 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec5 c (E5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (E5 m ρ c) (E6 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a region per kernel call, then the host line from region 5's exit contents. -/
abbrev mainSegs : List (Pipeline.Seg (pcfgs (F := F)) adm (pdats m ρ) () defs₀ 𝒱₀ L lv) :=
  [ .region (reg0 m ρ),
    .region (reg1 m ρ),
    .region (reg2 m ρ),
    .region (reg3 m ρ),
    .region (reg4 m ρ),
    .region (reg5 m ρ),
    .host (hseg hostOps6 hostOps6_sub hostOps6_fresh (W6 m ρ)) ]
theorem main_run (c : Dev nD) : main (F := F) c = Pipeline.Seg.run (mainSegs m ρ) :=
  main_segs (F := F) adm (pdats m ρ) () 𝒱₀ L lv (hseg hostOps6 hostOps6_sub hostOps6_fresh (W6 m ρ))
    (reg0 m ρ) (reg1 m ρ) (reg2 m ρ) (reg3 m ρ) (reg4 m ρ) (reg5 m ρ) rfl c

set_option backward.isDefEq.respectTransparency.types false in
/-- THE RUN: from any memory with zero counters every weakly fair execution of @main terminates, nothing faulting, and in
    every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (StableHlo.after hostOps6 (W6 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: the run, read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c)⟩) (run_all m ρ)

end Cert.KernelIdeal.Frame

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.KernelPayloads.lean ====
/-
  What each kernel body computes, read at one entry of its output block, on the extended reals.
  A features-times-weights body multiplies its [1024, 128] block by the [128, 128] weights into the zero accumulator and
  narrows the product to bf16, which changes no value here: entry (p, q) is Σ_j x(p, j) · w(j, q).
  An aggregation body multiplies its [256, 8192] panel of the adjacency (narrowed to bf16 first in layer 0: again no
  change) by the [8192, 128] product and rectifies: entry (p, q) is max (Σ_k a(p, k) · y(k, q)) 0, the zero kept as
  the f32 zero word's value.  A shape cast to the same shape is the identity.
-/
import proofs.«144917_g43490838839794_cont_8to1_b_342_2_alg».proof.Proof.Gen.KernelIdeal.Skeleton
import proofs.«144917_g43490838839794_cont_8to1_b_342_2_alg».proof.Proof.LibPlainMatmul
import Idealize.ShloMosaic.Lib.Pipeline.Value

noncomputable section

namespace Cert.KernelIdeal.KValue

open Cert.KernelIdeal Cert.KernelIdeal.Gen Idealize.ShloMosaic Idealize.ShloMosaic.ValueIdx

/-- Layer 0's features-times-weights block. -/
theorem pay0_apply (x0 : Vec Ideal S1024x128 .f32) (x1 : Vec Ideal S128x128 .f32) (p : Fin 1024) (q : Fin 128) :
    k0_pay1 x0 x1 (ix2 p q) = ∑ j : Fin 128, x0 (ix2 p j) * x1 (ix2 j q) := by
  unfold k0_pay1
  exact Cert.PlainMatmul.matmul_zero_apply (φ₁ := .f32) (φ₂ := .f32) dot_S1024x128_S128x128_S1024x128_1_0_0_1_n_n.wf none x0 x1 p q

/-- Layer 1's features-times-weights block. -/
theorem pay2_apply (x0 : Vec Ideal S1024x128 .f32) (x1 : Vec Ideal S128x128 .f32) (p : Fin 1024) (q : Fin 128) :
    k2_pay1 x0 x1 (ix2 p q) = ∑ j : Fin 128, x0 (ix2 p j) * x1 (ix2 j q) := by
  unfold k2_pay1
  simp only [shapeCast_self]
  exact Cert.PlainMatmul.matmul_zero_apply (φ₁ := .f32) (φ₂ := .f32) dot_S1024x128_S128x128_S1024x128_1_0_0_1_n_n.wf none x0 x1 p q

/-- Layer 2's features-times-weights block. -/
theorem pay4_apply (x0 : Vec Ideal S1024x128 .f32) (x1 : Vec Ideal S128x128 .f32) (p : Fin 1024) (q : Fin 128) :
    k4_pay1 x0 x1 (ix2 p q) = ∑ j : Fin 128, x0 (ix2 p j) * x1 (ix2 j q) := by
  unfold k4_pay1
  simp only [shapeCast_self]
  exact Cert.PlainMatmul.matmul_zero_apply (φ₁ := .f32) (φ₂ := .f32) dot_S1024x128_S128x128_S1024x128_1_0_0_1_n_n.wf none x0 x1 p q

/-- Layer 0's narrowed copy of the adjacency panel holds the panel's values. -/
theorem pay1a_apply (x0 : Vec Ideal S256x8192 .f32) (i : S256x8192.Idx) : k1_pay1 x0 i = x0 i := rfl

/-- Layer 0's aggregation block. -/
theorem pay1h_apply (x0 : Vec Ideal S256x8192 .f32) (x1 : Vec Ideal S8192x128 .bf16) (p : Fin 256) (q : Fin 128) :
    k1_pay2 x0 x1 (ix2 p q) = max (∑ k : Fin 8192, x0 (ix2 p k) * x1 (ix2 k q)) (Ideal.ofBits .f32 0x00000000#32) := by
  unfold k1_pay2 k1_pay1
  simp only [shapeCast_self]
  rw [maximumf_apply]
  congr 1
  exact Cert.PlainMatmul.matmul_zero_apply (φ₁ := .bf16) (φ₂ := .bf16) dot_S256x8192_S8192x128_S256x128_1_0_0_1_n_n.wf none _ x1 p q

/-- Layer 1's aggregation block. -/
theorem pay3_apply (x0 : Vec Ideal S256x8192 .bf16) (x1 : Vec Ideal S8192x128 .bf16) (p : Fin 256) (q : Fin 128) :
    k3_pay1 x0 x1 (ix2 p q) = max (∑ k : Fin 8192, x0 (ix2 p k) * x1 (ix2 k q)) (Ideal.ofBits .f32 0x00000000#32) := by
  unfold k3_pay1
  simp only [shapeCast_self]
  rw [maximumf_apply]
  congr 1
  exact Cert.PlainMatmul.matmul_zero_apply (φ₁ := .bf16) (φ₂ := .bf16) dot_S256x8192_S8192x128_S256x128_1_0_0_1_n_n.wf none x0 x1 p q

/-- Layer 2's aggregation block. -/
theorem pay5_apply (x0 : Vec Ideal S256x8192 .bf16) (x1 : Vec Ideal S8192x128 .bf16) (p : Fin 256) (q : Fin 128) :
    k5_pay1 x0 x1 (ix2 p q) = max (∑ k : Fin 8192, x0 (ix2 p k) * x1 (ix2 k q)) (Ideal.ofBits .f32 0x00000000#32) := by
  unfold k5_pay1
  simp only [shapeCast_self]
  rw [maximumf_apply]
  congr 1
  exact Cert.PlainMatmul.matmul_zero_apply (φ₁ := .bf16) (φ₂ := .bf16) dot_S256x8192_S8192x128_S256x128_1_0_0_1_n_n.wf none x0 x1 p q

end Cert.KernelIdeal.KValue

end
-- ==== Proof.Spec.lean ====
/-
  The mathematics of both programs, entry by entry, on the extended reals.

  One graph-convolution layer: the features `h` ([8192, 128]) are multiplied by the weights `w` ([128, 128]), the
  product is aggregated by the dense adjacency `A` ([8192, 8192]), and the result is rectified:
      layer A h w (p, q) = max (Σ_k A(p, k) · (Σ_j h(k, j) · w(j, q))) 0.
  The network applies three layers, each to the previous layer's output, and joins the three outputs along the
  feature axis.  The zero the rectifier compares with is kept as the f32 zero word's value, the same word in both
  programs, so it is never evaluated.
-/
import Idealize.ShloMosaic.PureOps.Ideal.Laws
import Idealize.ShloMosaic.Lib.ValueIdx

noncomputable section

namespace Cert.Jk

open Idealize.ShloMosaic Idealize.ShloMosaic.ValueIdx

/-- The feature matrices' shape, the adjacency's, the weights'. -/
abbrev SN : Shape := ⟨2, ![8192, 128]⟩
abbrev SA : Shape := ⟨2, ![8192, 8192]⟩
abbrev SW : Shape := ⟨2, ![128, 128]⟩

/-- Features times weights: entry (p, q) is Σ_j h(p, j) · w(j, q). -/
def xw (h : SN.Idx → EReal) (w : SW.Idx → EReal) : SN.Idx → EReal :=
  fun i => ∑ j : Fin 128, h (ix2 (i 0) j) * w (ix2 j (i 1))

/-- Aggregation by the adjacency, rectified: entry (p, q) is max (Σ_k A(p, k) · y(k, q)) 0. -/
def agg (A : SA.Idx → EReal) (y : SN.Idx → EReal) : SN.Idx → EReal :=
  fun i => max (∑ k : Fin 8192, A (ix2 (i 0) k) * y (ix2 k (i 1))) (Ideal.ofBits .f32 0x00000000#32)

/-- One layer. -/
def layer (A : SA.Idx → EReal) (h : SN.Idx → EReal) (w : SW.Idx → EReal) : SN.Idx → EReal := agg A (xw h w)

theorem xw_apply (h : SN.Idx → EReal) (w : SW.Idx → EReal) (p : Fin 8192) (q : Fin 128) :
    xw h w (ix2 p q) = ∑ j : Fin 128, h (ix2 p j) * w (ix2 j q) := rfl

theorem agg_apply (A : SA.Idx → EReal) (y : SN.Idx → EReal) (p : Fin 8192) (q : Fin 128) :
    agg A y (ix2 p q) = max (∑ k : Fin 8192, A (ix2 p k) * y (ix2 k q)) (Ideal.ofBits .f32 0x00000000#32) := rfl

end Cert.Jk

end
-- ==== Proof.KernelValue.B0.lean ====
/-
  Region 0, features times weights: the array it leaves.  Point t reads rows 1024·t … 1024·t + 1023 of the features and
  the whole weight matrix, and writes the same rows of the product; the eight points' blocks tile the array, so it ends
  holding the whole product.
-/
import proofs.«144917_g43490838839794_cont_8to1_b_342_2_alg».proof.Proof.KernelIdealFrame.R0
import proofs.«144917_g43490838839794_cont_8to1_b_342_2_alg».proof.Proof.KernelPayloads
import proofs.«144917_g43490838839794_cont_8to1_b_342_2_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Frame Cert.Jk

variable (V : (c : Dev nD) → (b : Ref sig .tc) → Buf (Elt Ideal) ((c : Thread nD τ).loc b))

theorem hz0 : (![0, 0] : Fin 2 → Nat) = fun _ => 0 := funext fun a => by fin_cases a <;> rfl

/-- The windows' block indices, decided over the grid: row block `t` of the features and of the result, the one block of the weights. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Input window 0's block at point `t`, read at an entry, is the array's entry 1024·t rows further down. -/
theorem iblk0_0_apply (c : Dev nD) (t : Fin cfg0.N) (x : S1024x128.Idx) (k : S8192x128.Idx)
    (hk0 : (k 0).val = 1024 * t.val + (x 0).val) (hk1 : (k 1).val = (x 1).val) :
    (iblk0 V c 0 t : S1024x128.Idx → EReal) x = (V c main_arg0 : S8192x128.Idx → EReal) k := by
  obtain ⟨e0, e1, -, -, -, -⟩ := idx0 t
  unfold iblk0
  rw [View.read_apply]
  show V c main_arg0 _ = V c main_arg0 _
  congr 1
  funext a; apply Fin.ext
  match a with
  | ⟨0, _⟩ => show win0_0.index t 0 * 1024 + 1 * (x 0).val = (k 0).val; rw [e0, hk0]; omega
  | ⟨1, _⟩ => show win0_0.index t 1 * 128 + 1 * (x 1).val = (k 1).val; rw [e1, hk1]; omega

/-- Input window 1's block at point `t`, read at an entry, is the array's entry at the same place (the window is the whole array). -/
theorem iblk0_1_apply (c : Dev nD) (t : Fin cfg0.N) (x : S128x128.Idx) (k : S128x128.Idx)
    (hk0 : (k 0).val = (x 0).val) (hk1 : (k 1).val = (x 1).val) :
    (iblk0 V c 1 t : S128x128.Idx → EReal) x = (V c main_arg2 : S128x128.Idx → EReal) k := by
  obtain ⟨-, -, e0, e1, -, -⟩ := idx0 t
  unfold iblk0
  rw [View.read_apply]
  show V c main_arg2 _ = V c main_arg2 _
  congr 1
  funext a; apply Fin.ext
  match a with
  | ⟨0, _⟩ => show win0_1.index t 0 * 128 + 1 * (x 0).val = (k 0).val; rw [e0, hk0]; omega
  | ⟨1, _⟩ => show win0_1.index t 1 * 128 + 1 * (x 1).val = (k 1).val; rw [e1, hk1]; omega

/-- What point `t` writes back is block `t` of the product of the two arrays as the region finds them. -/
theorem flushed0_2_eq (c : Dev nD) (t : Fin cfg0.N) :
    (dat0 V c).flushed 2 t = ((cfg0.win 2).blk t).view.read (Elt Ideal) (xw (V c main_arg0) (V c main_arg2)) := by
  show (cfg0.win 2).cut (grid0.coords t) ((dat0 V c).after 2 t) = _
  rw [after0_2]
  unfold out0_2
  rw [View.canon_unit_zero hz0]
  simp only [View.ld_unit_zero (S := S1024x128) hz0, View.ld_unit_zero (S := S128x128) hz0]
  obtain ⟨-, -, -, -, e4, e5⟩ := idx0 t
  funext j
  obtain ⟨p, q, hpq⟩ : ∃ (p : Fin 1024) (q : Fin 128), j = ix2 p q := ⟨j 0, j 1, eq_ix2 (n0 := 1024) (n1 := 128) j⟩
  have hp : (j 0).val = p.val := congrArg Fin.val (congrFun hpq 0)
  have hq : (j 1).val = q.val := congrArg Fin.val (congrFun hpq 1)
  show k0_pay1 (iblk0 V c 0 t) (iblk0 V c 1 t) j = xw (V c main_arg0) (V c main_arg2) (((cfg0.win 2).blk t).view.emb j)
  refine (congrArg (k0_pay1 (iblk0 V c 0 t) (iblk0 V c 1 t)) hpq).trans ?_
  rw [pay0_apply]
  unfold xw
  refine Finset.sum_congr rfl fun k _ => ?_
  congr 1
  · refine iblk0_0_apply V c t _ _ ?_ rfl
    show win0_2.index t 0 * 1024 + 1 * (j 0).val = 1024 * t.val + p.val
    rw [e4, hp]; omega
  · refine iblk0_1_apply V c t _ _ rfl ?_
    show win0_2.index t 1 * 128 + 1 * (j 1).val = q.val
    rw [e5, hq]; omega

/-- An index of the array is in point `t`'s block of output window 2 iff each coordinate is in the block's range. -/
theorem mem_blk0_2 (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0).slice (win0_2.rect t)).set ↔ _
  rw [View.set_slice_whole, Rect.mem_set_unit]
  exact Iff.rfl

/-- THE ARRAY after the region: the features times the weights. Row r is covered by point r / 1024. -/
theorem final0_2 (c : Dev nD) : (dat0 V c).arrAt 2 cfg0.N = xw (V c main_arg0) (V c main_arg2) :=
  (dat0 V c).arrAt_eq_of_cover 2 _ (fun t _ => flushed0_2_eq V c t) fun i => by
    have hi0 : (i 0).val < 8192 := (i 0).isLt
    have hi1 : (i 1).val < 128 := (i 1).isLt
    have hN : (i 0).val / 1024 < grid0.N := by rw [N_0]; omega
    refine ⟨⟨(i 0).val / 1024, hN⟩, flush0_2 _, ?_⟩
    rw [mem_blk0_2]
    obtain ⟨-, -, -, -, e4, e5⟩ := idx0 ⟨(i 0).val / 1024, hN⟩
    intro a
    match a with
    | ⟨0, _⟩ =>
      show win0_2.index ⟨(i 0).val / 1024, hN⟩ 0 * 1024 ≤ (i 0).val ∧ (i 0).val < win0_2.index ⟨(i 0).val / 1024, hN⟩ 0 * 1024 + 1024
      rw [e4]; show (i 0).val / 1024 * 1024 ≤ (i 0).val ∧ (i 0).val < (i 0).val / 1024 * 1024 + 1024; omega
    | ⟨1, _⟩ =>
      show win0_2.index ⟨(i 0).val / 1024, hN⟩ 1 * 128 ≤ (i 1).val ∧ (i 1).val < win0_2.index ⟨(i 0).val / 1024, hN⟩ 1 * 128 + 128
      rw [e5]; omega

end Cert.KernelIdeal.KValue

end
-- ==== Proof.KernelValue.B1.lean ====
/-
  Region 1, aggregation by the adjacency and the rectifier: the arrays it leaves.  Point t reads rows 256·t … 256·t + 255
  of the adjacency and the whole [8192, 128] product, and writes the same rows of the rectified aggregate and of the
  adjacency's narrowed copy, which holds the adjacency's own values; the 32 points' blocks tile
  the array, so it ends holding the whole aggregate.
-/
import proofs.«144917_g43490838839794_cont_8to1_b_342_2_alg».proof.Proof.KernelIdealFrame.R1
import proofs.«144917_g43490838839794_cont_8to1_b_342_2_alg».proof.Proof.KernelPayloads
import proofs.«144917_g43490838839794_cont_8to1_b_342_2_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Frame Cert.Jk

variable (V : (c : Dev nD) → (b : Ref sig .tc) → Buf (Elt Ideal) ((c : Thread nD τ).loc b))

theorem hz1 : (![0, 0] : Fin 2 → Nat) = fun _ => 0 := funext fun a => by fin_cases a <;> rfl

/-- The windows' block indices, decided over the grid: row panel `t` of the adjacency and of each result, the one block of the product. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Input window 0's block at point `t`, read at an entry, is the array's entry 256·t rows further down. -/
theorem iblk1_0_apply (c : Dev nD) (t : Fin cfg1.N) (x : S256x8192.Idx) (k : S8192x8192.Idx)
    (hk0 : (k 0).val = 256 * t.val + (x 0).val) (hk1 : (k 1).val = (x 1).val) :
    (iblk1 V c 0 t : S256x8192.Idx → EReal) x = (V c main_arg1 : S8192x8192.Idx → EReal) k := by
  obtain ⟨e0, e1, -, -, -, -, -, -⟩ := idx1 t
  unfold iblk1
  rw [View.read_apply]
  show V c main_arg1 _ = V c main_arg1 _
  congr 1
  funext a; apply Fin.ext
  match a with
  | ⟨0, _⟩ => show win1_0.index t 0 * 256 + 1 * (x 0).val = (k 0).val; rw [e0, hk0]; omega
  | ⟨1, _⟩ => show win1_0.index t 1 * 8192 + 1 * (x 1).val = (k 1).val; rw [e1, hk1]; omega

/-- Input window 1's block at point `t`, read at an entry, is the array's entry at the same place (the window is the whole array). -/
theorem iblk1_1_apply (c : Dev nD) (t : Fin cfg1.N) (x : S8192x128.Idx) (k : S8192x128.Idx)
    (hk0 : (k 0).val = (x 0).val) (hk1 : (k 1).val = (x 1).val) :
    (iblk1 V c 1 t : S8192x128.Idx → EReal) x = (V c main_v0 : S8192x128.Idx → EReal) k := by
  obtain ⟨-, -, e0, e1, -, -, -, -⟩ := idx1 t
  unfold iblk1
  rw [View.read_apply]
  show V c main_v0 _ = V c main_v0 _
  congr 1
  funext a; apply Fin.ext
  match a with
  | ⟨0, _⟩ => show win1_1.index t 0 * 8192 + 1 * (x 0).val = (k 0).val; rw [e0, hk0]; omega
  | ⟨1, _⟩ => show win1_1.index t 1 * 128 + 1 * (x 1).val = (k 1).val; rw [e1, hk1]; omega

/-- What point `t` writes back is block `t` of the rectified aggregate of the two arrays as the region finds them. -/
theorem flushed1_2_eq (c : Dev nD) (t : Fin cfg1.N) :
    (dat1 V c).flushed 2 t = ((cfg1.win 2).blk t).view.read (Elt Ideal) (agg (V c main_arg1) (V c main_v0)) := by
  show (cfg1.win 2).cut (grid1.coords t) ((dat1 V c).after 2 t) = _
  rw [after1_2]
  unfold out1_2
  rw [View.canon_unit_zero hz1]
  simp only [View.ld_unit_zero (S := S256x8192) hz1, View.ld_unit_zero (S := S8192x128) hz1]
  obtain ⟨-, -, -, -, e4, e5, -, -⟩ := idx1 t
  funext j
  obtain ⟨p, q, hpq⟩ : ∃ (p : Fin 256) (q : Fin 128), j = ix2 p q := ⟨j 0, j 1, eq_ix2 (n0 := 256) (n1 := 128) j⟩
  have hp : (j 0).val = p.val := congrArg Fin.val (congrFun hpq 0)
  have hq : (j 1).val = q.val := congrArg Fin.val (congrFun hpq 1)
  show k1_pay2 (iblk1 V c 0 t) (iblk1 V c 1 t) j = agg (V c main_arg1) (V c main_v0) (((cfg1.win 2).blk t).view.emb j)
  refine (congrArg (k1_pay2 (iblk1 V c 0 t) (iblk1 V c 1 t)) hpq).trans ?_
  rw [pay1h_apply]
  unfold agg
  congr 1
  refine Finset.sum_congr rfl fun k _ => ?_
  congr 1
  · refine iblk1_0_apply V c t _ _ ?_ rfl
    show win1_2.index t 0 * 256 + 1 * (j 0).val = 256 * t.val + p.val
    rw [e4, hp]; omega
  · refine iblk1_1_apply V c t _ _ rfl ?_
    show win1_2.index t 1 * 128 + 1 * (j 1).val = q.val
    rw [e5, hq]; omega

/-- An index of the array is in point `t`'s block of output window 2 iff each coordinate is in the block's range. -/
theorem mem_blk1_2 (t : Fin cfg1.N) (i : S8192x128.Idx) :
    i ∈ ((cfg1.win 2).blk t).view.set ↔ ∀ a : Fin 2, win1_2.index t a * S256x128.size a ≤ (i a).val ∧ (i a).val < win1_2.index t a * S256x128.size a + S256x128.size a := by
  show i ∈ ((View.whole main_v1_0).slice (win1_2.rect t)).set ↔ _
  rw [View.set_slice_whole, Rect.mem_set_unit]
  exact Iff.rfl

/-- THE ARRAY after the region: the rectified aggregate. Row r is covered by point r / 256. -/
theorem final1_2 (c : Dev nD) : (dat1 V c).arrAt 2 cfg1.N = agg (V c main_arg1) (V c main_v0) :=
  (dat1 V c).arrAt_eq_of_cover 2 _ (fun t _ => flushed1_2_eq V c t) fun i => by
    have hi0 : (i 0).val < 8192 := (i 0).isLt
    have hi1 : (i 1).val < 128 := (i 1).isLt
    have hN : (i 0).val / 256 < grid1.N := by rw [N_1]; omega
    refine ⟨⟨(i 0).val / 256, hN⟩, flush1_2 _, ?_⟩
    rw [mem_blk1_2]
    obtain ⟨-, -, -, -, e4, e5, -, -⟩ := idx1 ⟨(i 0).val / 256, hN⟩
    intro a
    match a with
    | ⟨0, _⟩ =>
      show win1_2.index ⟨(i 0).val / 256, hN⟩ 0 * 256 ≤ (i 0).val ∧ (i 0).val < win1_2.index ⟨(i 0).val / 256, hN⟩ 0 * 256 + 256
      rw [e4]; show (i 0).val / 256 * 256 ≤ (i 0).val ∧ (i 0).val < (i 0).val / 256 * 256 + 256; omega
    | ⟨1, _⟩ =>
      show win1_2.index ⟨(i 0).val / 256, hN⟩ 1 * 128 ≤ (i 1).val ∧ (i 1).val < win1_2.index ⟨(i 0).val / 256, hN⟩ 1 * 128 + 128
      rw [e5]; omega

/-- What point `t` writes back into the narrowed copy is block `t` of the adjacency itself. -/
theorem flushed1_3_eq (c : Dev nD) (t : Fin cfg1.N) :
    (dat1 V c).flushed 3 t = ((cfg1.win 3).blk t).view.read (Elt Ideal) (fun i : S8192x8192.Idx => (V c main_arg1 : S8192x8192.Idx → EReal) i) := by
  show (cfg1.win 3).cut (grid1.coords t) ((dat1 V c).after 3 t) = _
  rw [after1_3]
  unfold out1_3
  rw [View.canon_unit_zero hz1]
  simp only [View.ld_unit_zero (S := S256x8192) hz1]
  obtain ⟨-, -, -, -, -, -, e6, e7⟩ := idx1 t
  funext j
  show (iblk1 V c 0 t : S256x8192.Idx → EReal) j = (V c main_arg1 : S8192x8192.Idx → EReal) (((cfg1.win 3).blk t).view.emb j)
  refine iblk1_0_apply V c t _ _ ?_ ?_
  · show win1_3.index t 0 * 256 + 1 * (j 0).val = 256 * t.val + (j 0).val
    rw [e6]; omega
  · show win1_3.index t 1 * 8192 + 1 * (j 1).val = (j 1).val
    rw [e7]; omega

/-- An index of the array is in point `t`'s block of output window 3 iff each coordinate is in the block's range. -/
theorem mem_blk1_3 (t : Fin cfg1.N) (i : S8192x8192.Idx) :
    i ∈ ((cfg1.win 3).blk t).view.set ↔ ∀ a : Fin 2, win1_3.index t a * S256x8192.size a ≤ (i a).val ∧ (i a).val < win1_3.index t a * S256x8192.size a + S256x8192.size a := by
  show i ∈ ((View.whole main_v1_1).slice (win1_3.rect t)).set ↔ _
  rw [View.set_slice_whole, Rect.mem_set_unit]
  exact Iff.rfl

/-- THE NARROWED COPY after the region: the adjacency's own values. Row r is covered by point r / 256. -/
theorem final1_3 (c : Dev nD) : (dat1 V c).arrAt 3 cfg1.N = (fun i : S8192x8192.Idx => (V c main_arg1 : S8192x8192.Idx → EReal) i) :=
  (dat1 V c).arrAt_eq_of_cover 3 _ (fun t _ => flushed1_3_eq V c t) fun i => by
    have hi0 : (i 0).val < 8192 := (i 0).isLt
    have hi1 : (i 1).val < 8192 := (i 1).isLt
    have hN : (i 0).val / 256 < grid1.N := by rw [N_1]; omega
    refine ⟨⟨(i 0).val / 256, hN⟩, flush1_3 _, ?_⟩
    rw [mem_blk1_3]
    obtain ⟨-, -, -, -, -, -, e4, e5⟩ := idx1 ⟨(i 0).val / 256, hN⟩
    intro a
    match a with
    | ⟨0, _⟩ =>
      show win1_3.index ⟨(i 0).val / 256, hN⟩ 0 * 256 ≤ (i 0).val ∧ (i 0).val < win1_3.index ⟨(i 0).val / 256, hN⟩ 0 * 256 + 256
      rw [e4]; show (i 0).val / 256 * 256 ≤ (i 0).val ∧ (i 0).val < (i 0).val / 256 * 256 + 256; omega
    | ⟨1, _⟩ =>
      show win1_3.index ⟨(i 0).val / 256, hN⟩ 1 * 8192 ≤ (i 1).val ∧ (i 1).val < win1_3.index ⟨(i 0).val / 256, hN⟩ 1 * 8192 + 8192
      rw [e5]; omega

end Cert.KernelIdeal.KValue

end
-- ==== Proof.KernelValue.B2.lean ====
/-
  Region 2, features times weights: the array it leaves.  Point t reads rows 1024·t … 1024·t + 1023 of the features and
  the whole weight matrix, and writes the same rows of the product; the eight points' blocks tile the array, so it ends
  holding the whole product.
-/
import proofs.«144917_g43490838839794_cont_8to1_b_342_2_alg».proof.Proof.KernelIdealFrame.R2
import proofs.«144917_g43490838839794_cont_8to1_b_342_2_alg».proof.Proof.KernelPayloads
import proofs.«144917_g43490838839794_cont_8to1_b_342_2_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Frame Cert.Jk

variable (V : (c : Dev nD) → (b : Ref sig .tc) → Buf (Elt Ideal) ((c : Thread nD τ).loc b))

theorem hz2 : (![0, 0] : Fin 2 → Nat) = fun _ => 0 := funext fun a => by fin_cases a <;> rfl

/-- The windows' block indices, decided over the grid: row block `t` of the features and of the result, the one block of the weights. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Input window 0's block at point `t`, read at an entry, is the array's entry 1024·t rows further down. -/
theorem iblk2_0_apply (c : Dev nD) (t : Fin cfg2.N) (x : S1024x128.Idx) (k : S8192x128.Idx)
    (hk0 : (k 0).val = 1024 * t.val + (x 0).val) (hk1 : (k 1).val = (x 1).val) :
    (iblk2 V c 0 t : S1024x128.Idx → EReal) x = (V c main_v1_0 : S8192x128.Idx → EReal) k := by
  obtain ⟨e0, e1, -, -, -, -⟩ := idx2 t
  unfold iblk2
  rw [View.read_apply]
  show V c main_v1_0 _ = V c main_v1_0 _
  congr 1
  funext a; apply Fin.ext
  match a with
  | ⟨0, _⟩ => show win2_0.index t 0 * 1024 + 1 * (x 0).val = (k 0).val; rw [e0, hk0]; omega
  | ⟨1, _⟩ => show win2_0.index t 1 * 128 + 1 * (x 1).val = (k 1).val; rw [e1, hk1]; omega

/-- Input window 1's block at point `t`, read at an entry, is the array's entry at the same place (the window is the whole array). -/
theorem iblk2_1_apply (c : Dev nD) (t : Fin cfg2.N) (x : S128x128.Idx) (k : S128x128.Idx)
    (hk0 : (k 0).val = (x 0).val) (hk1 : (k 1).val = (x 1).val) :
    (iblk2 V c 1 t : S128x128.Idx → EReal) x = (V c main_arg3 : S128x128.Idx → EReal) k := by
  obtain ⟨-, -, e0, e1, -, -⟩ := idx2 t
  unfold iblk2
  rw [View.read_apply]
  show V c main_arg3 _ = V c main_arg3 _
  congr 1
  funext a; apply Fin.ext
  match a with
  | ⟨0, _⟩ => show win2_1.index t 0 * 128 + 1 * (x 0).val = (k 0).val; rw [e0, hk0]; omega
  | ⟨1, _⟩ => show win2_1.index t 1 * 128 + 1 * (x 1).val = (k 1).val; rw [e1, hk1]; omega

/-- What point `t` writes back is block `t` of the product of the two arrays as the region finds them. -/
theorem flushed2_2_eq (c : Dev nD) (t : Fin cfg2.N) :
    (dat2 V c).flushed 2 t = ((cfg2.win 2).blk t).view.read (Elt Ideal) (xw (V c main_v1_0) (V c main_arg3)) := by
  show (cfg2.win 2).cut (grid2.coords t) ((dat2 V c).after 2 t) = _
  rw [after2_2]
  unfold out2_2
  rw [View.canon_unit_zero hz2]
  simp only [View.ld_unit_zero (S := S1024x128) hz2, View.ld_unit_zero (S := S128x128) hz2]
  obtain ⟨-, -, -, -, e4, e5⟩ := idx2 t
  funext j
  obtain ⟨p, q, hpq⟩ : ∃ (p : Fin 1024) (q : Fin 128), j = ix2 p q := ⟨j 0, j 1, eq_ix2 (n0 := 1024) (n1 := 128) j⟩
  have hp : (j 0).val = p.val := congrArg Fin.val (congrFun hpq 0)
  have hq : (j 1).val = q.val := congrArg Fin.val (congrFun hpq 1)
  show k2_pay1 (iblk2 V c 0 t) (iblk2 V c 1 t) j = xw (V c main_v1_0) (V c main_arg3) (((cfg2.win 2).blk t).view.emb j)
  refine (congrArg (k2_pay1 (iblk2 V c 0 t) (iblk2 V c 1 t)) hpq).trans ?_
  rw [pay2_apply]
  unfold xw
  refine Finset.sum_congr rfl fun k _ => ?_
  congr 1
  · refine iblk2_0_apply V c t _ _ ?_ rfl
    show win2_2.index t 0 * 1024 + 1 * (j 0).val = 1024 * t.val + p.val
    rw [e4, hp]; omega
  · refine iblk2_1_apply V c t _ _ rfl ?_
    show win2_2.index t 1 * 128 + 1 * (j 1).val = q.val
    rw [e5, hq]; omega

/-- An index of the array is in point `t`'s block of output window 2 iff each coordinate is in the block's range. -/
theorem mem_blk2_2 (t : Fin cfg2.N) (i : S8192x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v2).slice (win2_2.rect t)).set ↔ _
  rw [View.set_slice_whole, Rect.mem_set_unit]
  exact Iff.rfl

/-- THE ARRAY after the region: the features times the weights. Row r is covered by point r / 1024. -/
theorem final2_2 (c : Dev nD) : (dat2 V c).arrAt 2 cfg2.N = xw (V c main_v1_0) (V c main_arg3) :=
  (dat2 V c).arrAt_eq_of_cover 2 _ (fun t _ => flushed2_2_eq V c t) fun i => by
    have hi0 : (i 0).val < 8192 := (i 0).isLt
    have hi1 : (i 1).val < 128 := (i 1).isLt
    have hN : (i 0).val / 1024 < grid2.N := by rw [N_2]; omega
    refine ⟨⟨(i 0).val / 1024, hN⟩, flush2_2 _, ?_⟩
    rw [mem_blk2_2]
    obtain ⟨-, -, -, -, e4, e5⟩ := idx2 ⟨(i 0).val / 1024, hN⟩
    intro a
    match a with
    | ⟨0, _⟩ =>
      show win2_2.index ⟨(i 0).val / 1024, hN⟩ 0 * 1024 ≤ (i 0).val ∧ (i 0).val < win2_2.index ⟨(i 0).val / 1024, hN⟩ 0 * 1024 + 1024
      rw [e4]; show (i 0).val / 1024 * 1024 ≤ (i 0).val ∧ (i 0).val < (i 0).val / 1024 * 1024 + 1024; omega
    | ⟨1, _⟩ =>
      show win2_2.index ⟨(i 0).val / 1024, hN⟩ 1 * 128 ≤ (i 1).val ∧ (i 1).val < win2_2.index ⟨(i 0).val / 1024, hN⟩ 1 * 128 + 128
      rw [e5]; omega

end Cert.KernelIdeal.KValue

end
-- ==== Proof.KernelValue.B3.lean ====
/-
  Region 3, aggregation by the adjacency and the rectifier: the array it leaves.  Point t reads rows 256·t … 256·t + 255
  of the adjacency and the whole [8192, 128] product, and writes the same rows of the rectified aggregate; the 32 points' blocks tile
  the array, so it ends holding the whole aggregate.
-/
import proofs.«144917_g43490838839794_cont_8to1_b_342_2_alg».proof.Proof.KernelIdealFrame.R3
import proofs.«144917_g43490838839794_cont_8to1_b_342_2_alg».proof.Proof.KernelPayloads
import proofs.«144917_g43490838839794_cont_8to1_b_342_2_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Frame Cert.Jk

variable (V : (c : Dev nD) → (b : Ref sig .tc) → Buf (Elt Ideal) ((c : Thread nD τ).loc b))

theorem hz3 : (![0, 0] : Fin 2 → Nat) = fun _ => 0 := funext fun a => by fin_cases a <;> rfl

/-- The windows' block indices, decided over the grid: row panel `t` of the adjacency and of each result, the one block of the product. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Input window 0's block at point `t`, read at an entry, is the array's entry 256·t rows further down. -/
theorem iblk3_0_apply (c : Dev nD) (t : Fin cfg3.N) (x : S256x8192.Idx) (k : S8192x8192.Idx)
    (hk0 : (k 0).val = 256 * t.val + (x 0).val) (hk1 : (k 1).val = (x 1).val) :
    (iblk3 V c 0 t : S256x8192.Idx → EReal) x = (V c main_v1_1 : S8192x8192.Idx → EReal) k := by
  obtain ⟨e0, e1, -, -, -, -⟩ := idx3 t
  unfold iblk3
  rw [View.read_apply]
  show V c main_v1_1 _ = V c main_v1_1 _
  congr 1
  funext a; apply Fin.ext
  match a with
  | ⟨0, _⟩ => show win3_0.index t 0 * 256 + 1 * (x 0).val = (k 0).val; rw [e0, hk0]; omega
  | ⟨1, _⟩ => show win3_0.index t 1 * 8192 + 1 * (x 1).val = (k 1).val; rw [e1, hk1]; omega

/-- Input window 1's block at point `t`, read at an entry, is the array's entry at the same place (the window is the whole array). -/
theorem iblk3_1_apply (c : Dev nD) (t : Fin cfg3.N) (x : S8192x128.Idx) (k : S8192x128.Idx)
    (hk0 : (k 0).val = (x 0).val) (hk1 : (k 1).val = (x 1).val) :
    (iblk3 V c 1 t : S8192x128.Idx → EReal) x = (V c main_v2 : S8192x128.Idx → EReal) k := by
  obtain ⟨-, -, e0, e1, -, -⟩ := idx3 t
  unfold iblk3
  rw [View.read_apply]
  show V c main_v2 _ = V c main_v2 _
  congr 1
  funext a; apply Fin.ext
  match a with
  | ⟨0, _⟩ => show win3_1.index t 0 * 8192 + 1 * (x 0).val = (k 0).val; rw [e0, hk0]; omega
  | ⟨1, _⟩ => show win3_1.index t 1 * 128 + 1 * (x 1).val = (k 1).val; rw [e1, hk1]; omega

/-- What point `t` writes back is block `t` of the rectified aggregate of the two arrays as the region finds them. -/
theorem flushed3_2_eq (c : Dev nD) (t : Fin cfg3.N) :
    (dat3 V c).flushed 2 t = ((cfg3.win 2).blk t).view.read (Elt Ideal) (agg (V c main_v1_1) (V c main_v2)) := by
  show (cfg3.win 2).cut (grid3.coords t) ((dat3 V c).after 2 t) = _
  rw [after3_2]
  unfold out3_2
  rw [View.canon_unit_zero hz3]
  simp only [View.ld_unit_zero (S := S256x8192) hz3, View.ld_unit_zero (S := S8192x128) hz3]
  obtain ⟨-, -, -, -, e4, e5⟩ := idx3 t
  funext j
  obtain ⟨p, q, hpq⟩ : ∃ (p : Fin 256) (q : Fin 128), j = ix2 p q := ⟨j 0, j 1, eq_ix2 (n0 := 256) (n1 := 128) j⟩
  have hp : (j 0).val = p.val := congrArg Fin.val (congrFun hpq 0)
  have hq : (j 1).val = q.val := congrArg Fin.val (congrFun hpq 1)
  show k3_pay1 (iblk3 V c 0 t) (iblk3 V c 1 t) j = agg (V c main_v1_1) (V c main_v2) (((cfg3.win 2).blk t).view.emb j)
  refine (congrArg (k3_pay1 (iblk3 V c 0 t) (iblk3 V c 1 t)) hpq).trans ?_
  rw [pay3_apply]
  unfold agg
  congr 1
  refine Finset.sum_congr rfl fun k _ => ?_
  congr 1
  · refine iblk3_0_apply V c t _ _ ?_ rfl
    show win3_2.index t 0 * 256 + 1 * (j 0).val = 256 * t.val + p.val
    rw [e4, hp]; omega
  · refine iblk3_1_apply V c t _ _ rfl ?_
    show win3_2.index t 1 * 128 + 1 * (j 1).val = q.val
    rw [e5, hq]; omega

/-- An index of the array is in point `t`'s block of output window 2 iff each coordinate is in the block's range. -/
theorem mem_blk3_2 (t : Fin cfg3.N) (i : S8192x128.Idx) :
    i ∈ ((cfg3.win 2).blk t).view.set ↔ ∀ a : Fin 2, win3_2.index t a * S256x128.size a ≤ (i a).val ∧ (i a).val < win3_2.index t a * S256x128.size a + S256x128.size a := by
  show i ∈ ((View.whole main_v3).slice (win3_2.rect t)).set ↔ _
  rw [View.set_slice_whole, Rect.mem_set_unit]
  exact Iff.rfl

/-- THE ARRAY after the region: the rectified aggregate. Row r is covered by point r / 256. -/
theorem final3_2 (c : Dev nD) : (dat3 V c).arrAt 2 cfg3.N = agg (V c main_v1_1) (V c main_v2) :=
  (dat3 V c).arrAt_eq_of_cover 2 _ (fun t _ => flushed3_2_eq V c t) fun i => by
    have hi0 : (i 0).val < 8192 := (i 0).isLt
    have hi1 : (i 1).val < 128 := (i 1).isLt
    have hN : (i 0).val / 256 < grid3.N := by rw [N_3]; omega
    refine ⟨⟨(i 0).val / 256, hN⟩, flush3_2 _, ?_⟩
    rw [mem_blk3_2]
    obtain ⟨-, -, -, -, e4, e5⟩ := idx3 ⟨(i 0).val / 256, hN⟩
    intro a
    match a with
    | ⟨0, _⟩ =>
      show win3_2.index ⟨(i 0).val / 256, hN⟩ 0 * 256 ≤ (i 0).val ∧ (i 0).val < win3_2.index ⟨(i 0).val / 256, hN⟩ 0 * 256 + 256
      rw [e4]; show (i 0).val / 256 * 256 ≤ (i 0).val ∧ (i 0).val < (i 0).val / 256 * 256 + 256; omega
    | ⟨1, _⟩ =>
      show win3_2.index ⟨(i 0).val / 256, hN⟩ 1 * 128 ≤ (i 1).val ∧ (i 1).val < win3_2.index ⟨(i 0).val / 256, hN⟩ 1 * 128 + 128
      rw [e5]; omega

end Cert.KernelIdeal.KValue

end
-- ==== Proof.KernelValue.B4.lean ====
/-
  Region 4, features times weights: the array it leaves.  Point t reads rows 1024·t … 1024·t + 1023 of the features and
  the whole weight matrix, and writes the same rows of the product; the eight points' blocks tile the array, so it ends
  holding the whole product.
-/
import proofs.«144917_g43490838839794_cont_8to1_b_342_2_alg».proof.Proof.KernelIdealFrame.R4
import proofs.«144917_g43490838839794_cont_8to1_b_342_2_alg».proof.Proof.KernelPayloads
import proofs.«144917_g43490838839794_cont_8to1_b_342_2_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Frame Cert.Jk

variable (V : (c : Dev nD) → (b : Ref sig .tc) → Buf (Elt Ideal) ((c : Thread nD τ).loc b))

theorem hz4 : (![0, 0] : Fin 2 → Nat) = fun _ => 0 := funext fun a => by fin_cases a <;> rfl

/-- The windows' block indices, decided over the grid: row block `t` of the features and of the result, the one block of the weights. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Input window 0's block at point `t`, read at an entry, is the array's entry 1024·t rows further down. -/
theorem iblk4_0_apply (c : Dev nD) (t : Fin cfg4.N) (x : S1024x128.Idx) (k : S8192x128.Idx)
    (hk0 : (k 0).val = 1024 * t.val + (x 0).val) (hk1 : (k 1).val = (x 1).val) :
    (iblk4 V c 0 t : S1024x128.Idx → EReal) x = (V c main_v3 : S8192x128.Idx → EReal) k := by
  obtain ⟨e0, e1, -, -, -, -⟩ := idx4 t
  unfold iblk4
  rw [View.read_apply]
  show V c main_v3 _ = V c main_v3 _
  congr 1
  funext a; apply Fin.ext
  match a with
  | ⟨0, _⟩ => show win4_0.index t 0 * 1024 + 1 * (x 0).val = (k 0).val; rw [e0, hk0]; omega
  | ⟨1, _⟩ => show win4_0.index t 1 * 128 + 1 * (x 1).val = (k 1).val; rw [e1, hk1]; omega

/-- Input window 1's block at point `t`, read at an entry, is the array's entry at the same place (the window is the whole array). -/
theorem iblk4_1_apply (c : Dev nD) (t : Fin cfg4.N) (x : S128x128.Idx) (k : S128x128.Idx)
    (hk0 : (k 0).val = (x 0).val) (hk1 : (k 1).val = (x 1).val) :
    (iblk4 V c 1 t : S128x128.Idx → EReal) x = (V c main_arg4 : S128x128.Idx → EReal) k := by
  obtain ⟨-, -, e0, e1, -, -⟩ := idx4 t
  unfold iblk4
  rw [View.read_apply]
  show V c main_arg4 _ = V c main_arg4 _
  congr 1
  funext a; apply Fin.ext
  match a with
  | ⟨0, _⟩ => show win4_1.index t 0 * 128 + 1 * (x 0).val = (k 0).val; rw [e0, hk0]; omega
  | ⟨1, _⟩ => show win4_1.index t 1 * 128 + 1 * (x 1).val = (k 1).val; rw [e1, hk1]; omega

/-- What point `t` writes back is block `t` of the product of the two arrays as the region finds them. -/
theorem flushed4_2_eq (c : Dev nD) (t : Fin cfg4.N) :
    (dat4 V c).flushed 2 t = ((cfg4.win 2).blk t).view.read (Elt Ideal) (xw (V c main_v3) (V c main_arg4)) := by
  show (cfg4.win 2).cut (grid4.coords t) ((dat4 V c).after 2 t) = _
  rw [after4_2]
  unfold out4_2
  rw [View.canon_unit_zero hz4]
  simp only [View.ld_unit_zero (S := S1024x128) hz4, View.ld_unit_zero (S := S128x128) hz4]
  obtain ⟨-, -, -, -, e4, e5⟩ := idx4 t
  funext j
  obtain ⟨p, q, hpq⟩ : ∃ (p : Fin 1024) (q : Fin 128), j = ix2 p q := ⟨j 0, j 1, eq_ix2 (n0 := 1024) (n1 := 128) j⟩
  have hp : (j 0).val = p.val := congrArg Fin.val (congrFun hpq 0)
  have hq : (j 1).val = q.val := congrArg Fin.val (congrFun hpq 1)
  show k4_pay1 (iblk4 V c 0 t) (iblk4 V c 1 t) j = xw (V c main_v3) (V c main_arg4) (((cfg4.win 2).blk t).view.emb j)
  refine (congrArg (k4_pay1 (iblk4 V c 0 t) (iblk4 V c 1 t)) hpq).trans ?_
  rw [pay4_apply]
  unfold xw
  refine Finset.sum_congr rfl fun k _ => ?_
  congr 1
  · refine iblk4_0_apply V c t _ _ ?_ rfl
    show win4_2.index t 0 * 1024 + 1 * (j 0).val = 1024 * t.val + p.val
    rw [e4, hp]; omega
  · refine iblk4_1_apply V c t _ _ rfl ?_
    show win4_2.index t 1 * 128 + 1 * (j 1).val = q.val
    rw [e5, hq]; omega

/-- An index of the array is in point `t`'s block of output window 2 iff each coordinate is in the block's range. -/
theorem mem_blk4_2 (t : Fin cfg4.N) (i : S8192x128.Idx) :
    i ∈ ((cfg4.win 2).blk t).view.set ↔ ∀ a : Fin 2, win4_2.index t a * S1024x128.size a ≤ (i a).val ∧ (i a).val < win4_2.index t a * S1024x128.size a + S1024x128.size a := by
  show i ∈ ((View.whole main_v4).slice (win4_2.rect t)).set ↔ _
  rw [View.set_slice_whole, Rect.mem_set_unit]
  exact Iff.rfl

/-- THE ARRAY after the region: the features times the weights. Row r is covered by point r / 1024. -/
theorem final4_2 (c : Dev nD) : (dat4 V c).arrAt 2 cfg4.N = xw (V c main_v3) (V c main_arg4) :=
  (dat4 V c).arrAt_eq_of_cover 2 _ (fun t _ => flushed4_2_eq V c t) fun i => by
    have hi0 : (i 0).val < 8192 := (i 0).isLt
    have hi1 : (i 1).val < 128 := (i 1).isLt
    have hN : (i 0).val / 1024 < grid4.N := by rw [N_4]; omega
    refine ⟨⟨(i 0).val / 1024, hN⟩, flush4_2 _, ?_⟩
    rw [mem_blk4_2]
    obtain ⟨-, -, -, -, e4, e5⟩ := idx4 ⟨(i 0).val / 1024, hN⟩
    intro a
    match a with
    | ⟨0, _⟩ =>
      show win4_2.index ⟨(i 0).val / 1024, hN⟩ 0 * 1024 ≤ (i 0).val ∧ (i 0).val < win4_2.index ⟨(i 0).val / 1024, hN⟩ 0 * 1024 + 1024
      rw [e4]; show (i 0).val / 1024 * 1024 ≤ (i 0).val ∧ (i 0).val < (i 0).val / 1024 * 1024 + 1024; omega
    | ⟨1, _⟩ =>
      show win4_2.index ⟨(i 0).val / 1024, hN⟩ 1 * 128 ≤ (i 1).val ∧ (i 1).val < win4_2.index ⟨(i 0).val / 1024, hN⟩ 1 * 128 + 128
      rw [e5]; omega

end Cert.KernelIdeal.KValue

end
-- ==== Proof.KernelValue.B5.lean ====
/-
  Region 5, aggregation by the adjacency and the rectifier: the array it leaves.  Point t reads rows 256·t … 256·t + 255
  of the adjacency and the whole [8192, 128] product, and writes the same rows of the rectified aggregate; the 32 points' blocks tile
  the array, so it ends holding the whole aggregate.
-/
import proofs.«144917_g43490838839794_cont_8to1_b_342_2_alg».proof.Proof.KernelIdealFrame.R5
import proofs.«144917_g43490838839794_cont_8to1_b_342_2_alg».proof.Proof.KernelPayloads
import proofs.«144917_g43490838839794_cont_8to1_b_342_2_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Frame Cert.Jk

variable (V : (c : Dev nD) → (b : Ref sig .tc) → Buf (Elt Ideal) ((c : Thread nD τ).loc b))

theorem hz5 : (![0, 0] : Fin 2 → Nat) = fun _ => 0 := funext fun a => by fin_cases a <;> rfl

/-- The windows' block indices, decided over the grid: row panel `t` of the adjacency and of each result, the one block of the product. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Input window 0's block at point `t`, read at an entry, is the array's entry 256·t rows further down. -/
theorem iblk5_0_apply (c : Dev nD) (t : Fin cfg5.N) (x : S256x8192.Idx) (k : S8192x8192.Idx)
    (hk0 : (k 0).val = 256 * t.val + (x 0).val) (hk1 : (k 1).val = (x 1).val) :
    (iblk5 V c 0 t : S256x8192.Idx → EReal) x = (V c main_v1_1 : S8192x8192.Idx → EReal) k := by
  obtain ⟨e0, e1, -, -, -, -⟩ := idx5 t
  unfold iblk5
  rw [View.read_apply]
  show V c main_v1_1 _ = V c main_v1_1 _
  congr 1
  funext a; apply Fin.ext
  match a with
  | ⟨0, _⟩ => show win5_0.index t 0 * 256 + 1 * (x 0).val = (k 0).val; rw [e0, hk0]; omega
  | ⟨1, _⟩ => show win5_0.index t 1 * 8192 + 1 * (x 1).val = (k 1).val; rw [e1, hk1]; omega

/-- Input window 1's block at point `t`, read at an entry, is the array's entry at the same place (the window is the whole array). -/
theorem iblk5_1_apply (c : Dev nD) (t : Fin cfg5.N) (x : S8192x128.Idx) (k : S8192x128.Idx)
    (hk0 : (k 0).val = (x 0).val) (hk1 : (k 1).val = (x 1).val) :
    (iblk5 V c 1 t : S8192x128.Idx → EReal) x = (V c main_v4 : S8192x128.Idx → EReal) k := by
  obtain ⟨-, -, e0, e1, -, -⟩ := idx5 t
  unfold iblk5
  rw [View.read_apply]
  show V c main_v4 _ = V c main_v4 _
  congr 1
  funext a; apply Fin.ext
  match a with
  | ⟨0, _⟩ => show win5_1.index t 0 * 8192 + 1 * (x 0).val = (k 0).val; rw [e0, hk0]; omega
  | ⟨1, _⟩ => show win5_1.index t 1 * 128 + 1 * (x 1).val = (k 1).val; rw [e1, hk1]; omega

/-- What point `t` writes back is block `t` of the rectified aggregate of the two arrays as the region finds them. -/
theorem flushed5_2_eq (c : Dev nD) (t : Fin cfg5.N) :
    (dat5 V c).flushed 2 t = ((cfg5.win 2).blk t).view.read (Elt Ideal) (agg (V c main_v1_1) (V c main_v4)) := by
  show (cfg5.win 2).cut (grid5.coords t) ((dat5 V c).after 2 t) = _
  rw [after5_2]
  unfold out5_2
  rw [View.canon_unit_zero hz5]
  simp only [View.ld_unit_zero (S := S256x8192) hz5, View.ld_unit_zero (S := S8192x128) hz5]
  obtain ⟨-, -, -, -, e4, e5⟩ := idx5 t
  funext j
  obtain ⟨p, q, hpq⟩ : ∃ (p : Fin 256) (q : Fin 128), j = ix2 p q := ⟨j 0, j 1, eq_ix2 (n0 := 256) (n1 := 128) j⟩
  have hp : (j 0).val = p.val := congrArg Fin.val (congrFun hpq 0)
  have hq : (j 1).val = q.val := congrArg Fin.val (congrFun hpq 1)
  show k5_pay1 (iblk5 V c 0 t) (iblk5 V c 1 t) j = agg (V c main_v1_1) (V c main_v4) (((cfg5.win 2).blk t).view.emb j)
  refine (congrArg (k5_pay1 (iblk5 V c 0 t) (iblk5 V c 1 t)) hpq).trans ?_
  rw [pay5_apply]
  unfold agg
  congr 1
  refine Finset.sum_congr rfl fun k _ => ?_
  congr 1
  · refine iblk5_0_apply V c t _ _ ?_ rfl
    show win5_2.index t 0 * 256 + 1 * (j 0).val = 256 * t.val + p.val
    rw [e4, hp]; omega
  · refine iblk5_1_apply V c t _ _ rfl ?_
    show win5_2.index t 1 * 128 + 1 * (j 1).val = q.val
    rw [e5, hq]; omega

/-- An index of the array is in point `t`'s block of output window 2 iff each coordinate is in the block's range. -/
theorem mem_blk5_2 (t : Fin cfg5.N) (i : S8192x128.Idx) :
    i ∈ ((cfg5.win 2).blk t).view.set ↔ ∀ a : Fin 2, win5_2.index t a * S256x128.size a ≤ (i a).val ∧ (i a).val < win5_2.index t a * S256x128.size a + S256x128.size a := by
  show i ∈ ((View.whole main_v5).slice (win5_2.rect t)).set ↔ _
  rw [View.set_slice_whole, Rect.mem_set_unit]
  exact Iff.rfl

/-- THE ARRAY after the region: the rectified aggregate. Row r is covered by point r / 256. -/
theorem final5_2 (c : Dev nD) : (dat5 V c).arrAt 2 cfg5.N = agg (V c main_v1_1) (V c main_v4) :=
  (dat5 V c).arrAt_eq_of_cover 2 _ (fun t _ => flushed5_2_eq V c t) fun i => by
    have hi0 : (i 0).val < 8192 := (i 0).isLt
    have hi1 : (i 1).val < 128 := (i 1).isLt
    have hN : (i 0).val / 256 < grid5.N := by rw [N_5]; omega
    refine ⟨⟨(i 0).val / 256, hN⟩, flush5_2 _, ?_⟩
    rw [mem_blk5_2]
    obtain ⟨-, -, -, -, e4, e5⟩ := idx5 ⟨(i 0).val / 256, hN⟩
    intro a
    match a with
    | ⟨0, _⟩ =>
      show win5_2.index ⟨(i 0).val / 256, hN⟩ 0 * 256 ≤ (i 0).val ∧ (i 0).val < win5_2.index ⟨(i 0).val / 256, hN⟩ 0 * 256 + 256
      rw [e4]; show (i 0).val / 256 * 256 ≤ (i 0).val ∧ (i 0).val < (i 0).val / 256 * 256 + 256; omega
    | ⟨1, _⟩ =>
      show win5_2.index ⟨(i 0).val / 256, hN⟩ 1 * 128 ≤ (i 1).val ∧ (i 1).val < win5_2.index ⟨(i 0).val / 256, hN⟩ 1 * 128 + 128
      rw [e5]; omega

end Cert.KernelIdeal.KValue

end
-- ==== Proof.KernelResult.lean ====
/-
  The kernel's result, as one function of the arguments.

  The host line at the end joins three buffers along the feature axis.  Walking the boundaries' fold back: the first is
  what the layer-0 aggregation left, the second what the layer-1 aggregation left, the third what the layer-2
  aggregation left; every region in between leaves them alone (it either does not touch the buffer or only reads it
  through an input window).  Each aggregation left the rectified aggregate of the adjacency — the argument itself in
  layer 0, its narrowed copy with the same values afterwards — and of the product the features-times-weights region
  before it left, whose features are the previous layer's output.  So the three buffers are the three layers of
  Spec.lean applied to the arguments, each layer to the one before.
-/
import proofs.«144917_g43490838839794_cont_8to1_b_342_2_alg».proof.Proof.KernelIdealFrame.Run
import proofs.«144917_g43490838839794_cont_8to1_b_342_2_alg».proof.Proof.KernelValue.B0
import proofs.«144917_g43490838839794_cont_8to1_b_342_2_alg».proof.Proof.KernelValue.B1
import proofs.«144917_g43490838839794_cont_8to1_b_342_2_alg».proof.Proof.KernelValue.B2
import proofs.«144917_g43490838839794_cont_8to1_b_342_2_alg».proof.Proof.KernelValue.B3
import proofs.«144917_g43490838839794_cont_8to1_b_342_2_alg».proof.Proof.KernelValue.B4
import proofs.«144917_g43490838839794_cont_8to1_b_342_2_alg».proof.Proof.KernelValue.B5

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Frame Cert.Jk

variable (m : (ℓ : Loc nD τ sig) → Buf (Elt Ideal) ℓ) (ρ : Dev nD → PrngReg)

/-- The arguments on core `c`: features, adjacency, the three weight matrices. -/
abbrev X (c : Dev nD) : SN.Idx → EReal := m ((c : Thread nD τ).loc main_arg0)
abbrev A (c : Dev nD) : SA.Idx → EReal := m ((c : Thread nD τ).loc main_arg1)
abbrev Wt0 (c : Dev nD) : SW.Idx → EReal := m ((c : Thread nD τ).loc main_arg2)
abbrev Wt1 (c : Dev nD) : SW.Idx → EReal := m ((c : Thread nD τ).loc main_arg3)
abbrev Wt2 (c : Dev nD) : SW.Idx → EReal := m ((c : Thread nD τ).loc main_arg4)

/-- The three layers' outputs. -/
def H1 (c : Dev nD) : SN.Idx → EReal := layer (A m c) (X m c) (Wt0 m c)
def H2 (c : Dev nD) : SN.Idx → EReal := layer (A m c) (H1 m c) (Wt1 m c)
def H3 (c : Dev nD) : SN.Idx → EReal := layer (A m c) (H2 m c) (Wt2 m c)

/-- Three feature matrices joined along the feature axis, as @main's last line joins them. -/
def joined (a b d : SN.Idx → EReal) : S8192x384.Idx → EReal :=
  concatenate S8192x384 1 [⟨S8192x128, a⟩, ⟨S8192x128, b⟩, ⟨S8192x128, d⟩] concatenates_S8192x128_S8192x128_S8192x128_S8192x384_d1

/-! ## The arguments as the regions find them: nothing before has written them -/

theorem arg1_at1 (c : Dev nD) : (E1 m ρ c main_arg1 : SA.Idx → EReal) = A m c :=
  (W1_of_ne m ρ c main_arg1 (by decide)).trans rfl
theorem arg3_at2 (c : Dev nD) : (E2 m ρ c main_arg3 : SW.Idx → EReal) = Wt1 m c :=
  (W2_of_ne m ρ c main_arg3 (by decide)).trans ((W1_of_ne m ρ c main_arg3 (by decide)).trans rfl)
theorem arg4_at4 (c : Dev nD) : (E4 m ρ c main_arg4 : SW.Idx → EReal) = Wt2 m c :=
  (W4_of_ne m ρ c main_arg4 (by decide)).trans ((W3_of_ne m ρ c main_arg4 (by decide)).trans
    ((W2_of_ne m ρ c main_arg4 (by decide)).trans ((W1_of_ne m ρ c main_arg4 (by decide)).trans rfl)))

/-! ## What each region leaves, from the launch on -/

/-- Region 0 leaves the features times the first weights. -/
theorem y0_at1 (c : Dev nD) : (E1 m ρ c main_v0 : SN.Idx → EReal) = xw (X m c) (Wt0 m c) :=
  (W1_arr m ρ c 2).trans ((final0_2 (E0 m ρ) c).trans rfl)

/-- Region 1 leaves layer 1's output -/
theorem h1_at2 (c : Dev nD) : (E2 m ρ c main_v1_0 : SN.Idx → EReal) = H1 m c :=
  (W2_arr m ρ c 2).trans ((final1_2 (E1 m ρ) c).trans (congrArg₂ agg (arg1_at1 m ρ c) (y0_at1 m ρ c)))

/-- and a copy of the adjacency holding the adjacency's values. -/
theorem a16_at2 (c : Dev nD) : (E2 m ρ c main_v1_1 : SA.Idx → EReal) = A m c :=
  (W2_arr m ρ c 3).trans ((final1_3 (E1 m ρ) c).trans (arg1_at1 m ρ c))

/-- Region 2 leaves layer 1's output times the second weights. -/
theorem y1_at3 (c : Dev nD) : (E3 m ρ c main_v2 : SN.Idx → EReal) = xw (H1 m c) (Wt1 m c) :=
  (W3_arr m ρ c 2).trans ((final2_2 (E2 m ρ) c).trans (congrArg₂ xw (h1_at2 m ρ c) (arg3_at2 m ρ c)))

/-- Region 2 does not touch the adjacency's copy. -/
theorem a16_at3 (c : Dev nD) : (E3 m ρ c main_v1_1 : SA.Idx → EReal) = A m c :=
  (W3_of_ne m ρ c main_v1_1 (by decide)).trans (a16_at2 m ρ c)

/-- Region 3 leaves layer 2's output. -/
theorem h2_at4 (c : Dev nD) : (E4 m ρ c main_v3 : SN.Idx → EReal) = H2 m c :=
  (W4_arr m ρ c 2).trans ((final3_2 (E3 m ρ) c).trans (congrArg₂ agg (a16_at3 m ρ c) (y1_at3 m ρ c)))

/-- Region 3 only reads the adjacency's copy, and region 4 does not touch it. -/
theorem a16_at5 (c : Dev nD) : (E5 m ρ c main_v1_1 : SA.Idx → EReal) = A m c :=
  (W5_of_ne m ρ c main_v1_1 (by decide)).trans
    (((W4_arr m ρ c 0).trans (((dat3 (E3 m ρ) c).arrAt_in 0 rfl _).trans (A_eq3 (E3 m ρ) c 0))).trans (a16_at3 m ρ c))

/-- Region 4 leaves layer 2's output times the third weights. -/
theorem y2_at5 (c : Dev nD) : (E5 m ρ c main_v4 : SN.Idx → EReal) = xw (H2 m c) (Wt2 m c) :=
  (W5_arr m ρ c 2).trans ((final4_2 (E4 m ρ) c).trans (congrArg₂ xw (h2_at4 m ρ c) (arg4_at4 m ρ c)))

/-- Region 5 leaves layer 3's output. -/
theorem h3_at6 (c : Dev nD) : (E6 m ρ c main_v5 : SN.Idx → EReal) = H3 m c :=
  (W6_arr m ρ c 2).trans ((final5_2 (E5 m ρ) c).trans (congrArg₂ agg (a16_at5 m ρ c) (y2_at5 m ρ c)))

/-! ## The earlier layers' outputs reach the end -/

/-- Layer 1's output: region 2 only reads it, regions 3, 4 and 5 do not touch it. -/
theorem h1_at6 (c : Dev nD) : (E6 m ρ c main_v1_0 : SN.Idx → EReal) = H1 m c :=
  (W6_of_ne m ρ c main_v1_0 (by decide)).trans ((W5_of_ne m ρ c main_v1_0 (by decide)).trans ((W4_of_ne m ρ c main_v1_0 (by decide)).trans
    (((W3_arr m ρ c 0).trans (((dat2 (E2 m ρ) c).arrAt_in 0 rfl _).trans (A_eq2 (E2 m ρ) c 0))).trans (h1_at2 m ρ c))))

/-- Layer 2's output: region 4 only reads it, region 5 does not touch it. -/
theorem h2_at6 (c : Dev nD) : (E6 m ρ c main_v3 : SN.Idx → EReal) = H2 m c :=
  (W6_of_ne m ρ c main_v3 (by decide)).trans
    (((W5_arr m ρ c 0).trans (((dat4 (E4 m ρ) c).arrAt_in 0 rfl _).trans (A_eq4 (E4 m ρ) c 0))).trans (h2_at4 m ρ c))

/-! ## The result -/

/-- The host line writes the three buffers joined. -/
theorem W7_main_v6 (c : Dev nD) :
    (W7 m ρ c (Proc.devRef .tc main_v6) : S8192x384.Idx → EReal) = joined (H1 m c) (H2 m c) (H3 m c) := by
  have h : (W7 m ρ c (Proc.devRef .tc main_v6) : S8192x384.Idx → EReal)
      = joined (E6 m ρ c main_v1_0) (E6 m ρ c main_v3) (E6 m ρ c main_v5) := by
    show StableHlo.after hostOps6 (W6 m ρ c) (Proc.devRef .tc main_v6) = _
    simp only [hostOps6, StableHlo.after_cons, StableHlo.after_nil, StableHlo.nary_result']
    rfl
  rw [h, h1_at6 m ρ c, h2_at6 m ρ c, h3_at6 m ρ c]

/-- THE KERNEL'S RUN, READ: the result buffer at the three layers joined, the arguments as launched. -/
theorem run : θ_run defs (onTc (τ := τ) (main (F := Ideal))) ⟨m, fun _ => 0, ρ⟩ (fun r => ∀ c : Dev nD,
      r.2.mem ((c.tc : Thread nD τ).loc main_v6) = joined (H1 m c) (H2 m c) (H3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (h c _ (mem_uc main_v6 (by decide))).trans (W7_main_v6 m ρ c),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c)⟩) (run_all m ρ)

end Cert.KernelIdeal.KValue

end
-- ==== Proof.RefValue.lean ====
/-
  The reference, entry by entry.  Its @main is three times "dot_general by the weights, dot_general by the adjacency,
  maximum with the zero splat", then the concatenation.  A host dot_general of an [m, K] by a [K, n] operand is at
  (p, q) the sum over k of l(p, k) · r(k, q); the maximum and the splat are read entrywise.  So each of the three
  stages is the layer of Spec.lean.
-/
import proofs.«144917_g43490838839794_cont_8to1_b_342_2_alg».proof.Proof.Gen.ReferenceIdeal.Run
import proofs.«144917_g43490838839794_cont_8to1_b_342_2_alg».proof.Proof.Spec
import proofs.«144917_g43490838839794_cont_8to1_b_342_2_alg».proof.Proof.LibPlainMatmul
import Idealize.ShloMosaic.Lib.Pipeline.Value

noncomputable section

namespace Cert.ReferenceIdeal.RefValue

open Cert.ReferenceIdeal Cert.ReferenceIdeal.Gen Idealize.ShloMosaic Idealize.ShloMosaic.ValueIdx Cert.Jk

/-- The host's features-times-weights product is `xw`. -/
theorem hostXw_eq (h : FVec Ideal S8192x128 .f32) (w : FVec Ideal S128x128 .f32) :
    Host.dotGeneral dot_S8192x128_S128x128_S8192x128_1_0_0_1_n_n none h w = xw h w := by
  funext i
  obtain ⟨p, q, rfl⟩ : ∃ (p : Fin 8192) (q : Fin 128), i = ix2 p q := ⟨i 0, i 1, eq_ix2 i⟩
  rw [xw_apply]
  exact Cert.PlainMatmul.dotGeneral_apply dot_S8192x128_S128x128_S8192x128_1_0_0_1_n_n.wf none _ h w p q

/-- The host's aggregation, rectified against the zero splat, is `agg`. -/
theorem hostAgg_eq (A : FVec Ideal S8192x8192 .f32) (y : FVec Ideal S8192x128 .f32) :
    maximumf (Host.dotGeneral dot_S8192x8192_S8192x128_S8192x128_1_0_0_1_n_n none A y)
      (broadcastInDim S8192x128 ![] bcast_S_S8192x128 (constant (F := Ideal) S_ .f32 0x00000000#32)) = agg A y := by
  funext i
  obtain ⟨p, q, rfl⟩ : ∃ (p : Fin 8192) (q : Fin 128), i = ix2 p q := ⟨i 0, i 1, eq_ix2 i⟩
  rw [agg_apply, maximumf_apply]
  congr 1
  exact Cert.PlainMatmul.dotGeneral_apply dot_S8192x8192_S8192x128_S8192x128_1_0_0_1_n_n.wf none _ A y p q

/-- One stage of the reference is one layer. -/
theorem hostLayer_eq (A : FVec Ideal S8192x8192 .f32) (h : FVec Ideal S8192x128 .f32) (w : FVec Ideal S128x128 .f32) :
    maximumf (Host.dotGeneral dot_S8192x8192_S8192x128_S8192x128_1_0_0_1_n_n none A
        (Host.dotGeneral dot_S8192x128_S128x128_S8192x128_1_0_0_1_n_n none h w))
      (broadcastInDim S8192x128 ![] bcast_S_S8192x128 (constant (F := Ideal) S_ .f32 0x00000000#32)) = layer A h w := by
  rw [hostXw_eq, hostAgg_eq]; rfl

/-- The reference's whole result term: its three stages, each fed the stage before, joined along the feature axis, are
    the three layers joined. -/
theorem result_eq (x : FVec Ideal S8192x128 .f32) (A : FVec Ideal S8192x8192 .f32) (w0 w1 w2 : FVec Ideal S128x128 .f32) :
    concatenate S8192x384 1 [⟨S8192x128, (maximumf (Host.dotGeneral dot_S8192x8192_S8192x128_S8192x128_1_0_0_1_n_n none A (Host.dotGeneral dot_S8192x128_S128x128_S8192x128_1_0_0_1_n_n none x w0)) (broadcastInDim S8192x128 ![] bcast_S_S8192x128 (constant (F := Ideal) S_ .f32 0x00000000#32)))⟩,
        ⟨S8192x128, (maximumf (Host.dotGeneral dot_S8192x8192_S8192x128_S8192x128_1_0_0_1_n_n none A (Host.dotGeneral dot_S8192x128_S128x128_S8192x128_1_0_0_1_n_n none (maximumf (Host.dotGeneral dot_S8192x8192_S8192x128_S8192x128_1_0_0_1_n_n none A (Host.dotGeneral dot_S8192x128_S128x128_S8192x128_1_0_0_1_n_n none x w0)) (broadcastInDim S8192x128 ![] bcast_S_S8192x128 (constant (F := Ideal) S_ .f32 0x00000000#32))) w1)) (broadcastInDim S8192x128 ![] bcast_S_S8192x128 (constant (F := Ideal) S_ .f32 0x00000000#32)))⟩,
        ⟨S8192x128, (maximumf (Host.dotGeneral dot_S8192x8192_S8192x128_S8192x128_1_0_0_1_n_n none A (Host.dotGeneral dot_S8192x128_S128x128_S8192x128_1_0_0_1_n_n none (maximumf (Host.dotGeneral dot_S8192x8192_S8192x128_S8192x128_1_0_0_1_n_n none A (Host.dotGeneral dot_S8192x128_S128x128_S8192x128_1_0_0_1_n_n none (maximumf (Host.dotGeneral dot_S8192x8192_S8192x128_S8192x128_1_0_0_1_n_n none A (Host.dotGeneral dot_S8192x128_S128x128_S8192x128_1_0_0_1_n_n none x w0)) (broadcastInDim S8192x128 ![] bcast_S_S8192x128 (constant (F := Ideal) S_ .f32 0x00000000#32))) w1)) (broadcastInDim S8192x128 ![] bcast_S_S8192x128 (constant (F := Ideal) S_ .f32 0x00000000#32))) w2)) (broadcastInDim S8192x128 ![] bcast_S_S8192x128 (constant (F := Ideal) S_ .f32 0x00000000#32)))⟩] concatenates_S8192x128_S8192x128_S8192x128_S8192x384_d1
      = concatenate S8192x384 1 [⟨S8192x128, layer A x w0⟩, ⟨S8192x128, layer A (layer A x w0) w1⟩,
        ⟨S8192x128, layer A (layer A (layer A x w0) w1) w2⟩] concatenates_S8192x128_S8192x128_S8192x128_S8192x384_d1 := by
  rw [hostLayer_eq A x w0, hostLayer_eq A (layer A x w0) w1, hostLayer_eq A (layer A (layer A x w0) w1) w2]

end Cert.ReferenceIdeal.RefValue

end
-- ==== Proof.lean ====
/-
  A three-layer graph convolution with jumping knowledge, kernel against reference, on the extended reals.

  Both programs compute, for the adjacency A, the features X and weights W0, W1, W2,
      H1 = relu(A · (X · W0)),   H2 = relu(A · (H1 · W1)),   H3 = relu(A · (H2 · W2)),
  and return [H1 | H2 | H3] joined along the feature axis.  The kernel does each product in a grid of row blocks (the
  features-times-weights product in eight blocks of 1024 rows, the aggregation in 32 panels of 256 rows), narrows the
  first product and a copy of A to bf16 on the way, and reads that copy in layers 2 and 3; the reference does three
  pairs of whole dot_generals.  On the extended reals a change of float format changes no value, a product into a zero
  accumulator and a dot_general are the same sum over the contracted axis in the same order, and row blocks that tile
  an array assemble the whole array; so entry by entry both results are the same term.  No law of arithmetic beyond
  that is used, and the precondition (finite inputs) is never opened.

  Frames: each kernel program is six regions and one host line; its run is proved once, for any float values
  (KernelIdealFrame/, KernelFrame/), and read at the argument arrays.  The reference's frame is its run with the result
  dropped.  The idealization rewrote no operation, so there is nothing to preserve beyond the text itself.
-/
import proofs.«144917_g43490838839794_cont_8to1_b_342_2_alg».proof.Defs
import proofs.«144917_g43490838839794_cont_8to1_b_342_2_alg».proof.Proof.Gen.Kernel
import proofs.«144917_g43490838839794_cont_8to1_b_342_2_alg».proof.Proof.Gen.KernelIdeal
import proofs.«144917_g43490838839794_cont_8to1_b_342_2_alg».proof.Proof.Gen.ReferenceIdeal
import proofs.«144917_g43490838839794_cont_8to1_b_342_2_alg».proof.Proof.Gen.Pre_finite_inputs
import proofs.«144917_g43490838839794_cont_8to1_b_342_2_alg».proof.Proof.KernelFrame.Run
import proofs.«144917_g43490838839794_cont_8to1_b_342_2_alg».proof.Proof.KernelIdealFrame.Run
import proofs.«144917_g43490838839794_cont_8to1_b_342_2_alg».proof.Proof.KernelResult
import proofs.«144917_g43490838839794_cont_8to1_b_342_2_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Frame.frame (F := Bits) m ρ

/-- So does the idealized kernel: the same run, read at the extended reals. -/
theorem frame_ki : Cert.frame_KernelIdeal := fun m ρ _ => Cert.KernelIdeal.Frame.frame (F := Ideal) m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the three layers' outputs joined: the kernel's
    result buffer by the boundary walk of KernelResult.lean, the reference's by reading each of its three stages as one
    layer (RefValue.lean). -/
theorem algebraic : Cert.algebraic_KernelIdeal_ReferenceIdeal := by
  intro m ρ m' ρ' _ hagree
  refine ⟨fun c => Cert.KernelIdeal.KValue.joined (Cert.KernelIdeal.KValue.H1 m c) (Cert.KernelIdeal.KValue.H2 m c)
      (Cert.KernelIdeal.KValue.H3 m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4]
  exact (Cert.ReferenceIdeal.RefValue.result_eq _ _ _ _ _).trans rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
